-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1433 : Shape := ⟨2, ![10000, 1433]⟩
abbrev S10000x10000 : Shape := ⟨2, ![10000, 10000]⟩
abbrev S1433x256 : Shape := ⟨2, ![1433, 256]⟩
abbrev S256 : Shape := ⟨1, ![256]⟩
abbrev S256x7 : Shape := ⟨2, ![256, 7]⟩
abbrev S7 : Shape := ⟨1, ![7]⟩
abbrev S_ : Shape := ⟨0, ![]⟩

class Facts : Prop where
  bcast_S_S10000x1433 : S_.BroadcastsInDim S10000x1433 (![] : Fin 0 → Fin S10000x1433.rank)
  reducesTo_S10000x1433_S_d0_1 : S10000x1433.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S1433x256 : S_.BroadcastsInDim S1433x256 (![] : Fin 0 → Fin S1433x256.rank)
  reducesTo_S1433x256_S_d0_1 : S1433x256.ReducesTo [0, 1] S_
  bcast_S_S256 : S_.BroadcastsInDim S256 (![] : Fin 0 → Fin S256.rank)
  reducesTo_S256_S_d0 : S256.ReducesTo [0] S_
  bcast_S_S256x7 : S_.BroadcastsInDim S256x7 (![] : Fin 0 → Fin S256x7.rank)
  reducesTo_S256x7_S_d0_1 : S256x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg4 : FVec F S256x7 .f32) (main_arg5 : FVec F S7 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x7 .f32 := Host.absf main_arg4
  let main_cst_6 : FVec F S_ .f32 := constant S_ .f32 0x7F800000#32
  let main_v20 : FVec F S256x7 .f32 := broadcastInDim S256x7 ![] bcast_S_S256x7 main_cst_6
  let main_v21 : IVec S256x7 1 := cmpf .olt main_v19 main_v20
  let main_c_7 : IVec S_ 1 := constantI S_ 1 1#1
  let main_v22 : IVec S_ 1 := (fun x v => Host.reduce IntOp.andi x v reducesTo_S256x7_S_d0_1 h_S_) main_v21 main_c_7
  let main_v23 : IVec S_ 1 := andi main_v18 main_v22
  let main_v24 : FVec F S7 .f32 := Host.absf main_arg5
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S10000x1433 .f32) (main_arg1 : FVec F S10000x10000 .f32) (main_arg2 : FVec F S1433x256 .f32) (main_arg3 : FVec F S256 .f32) (main_arg4 : FVec F S256x7 .f32) (main_arg5 : FVec F S7 .f32) : IVec S_ 1 :=
  let main_v0 : FVec F S10000x1433 .f32 := Host.absf main_arg0
  let main_cst : FVec F S_ .f32 := constant S_ .f32 0x7F800000#32
  let main_v1 : FVec F S10000x1433 .f32 := broadcastInDim S10000x1433 ![] bcast_S_S10000x1433 main_cst
  let main_v2 : IVec S10000x1433 1 := cmpf .olt main_v0 main_v1
  let main_c : IVec S_ 1 := constantI S_ 1 1#1
  let main_v3 : IVec S_ 1 := (fun x v => Host.reduce IntOp.andi x v reducesTo_S10000x1433_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S1433x256 .f32 := Host.absf main_arg2
  let main_cst_2 : FVec F S_ .f32 := constant S_ .f32 0x7F800000#32
  let main_v10 : FVec F S1433x256 .f32 := broadcastInDim S1433x256 ![] bcast_S_S1433x256 main_cst_2
  let main_v11 : IVec S1433x256 1 := cmpf .olt main_v9 main_v10
  let main_c_3 : IVec S_ 1 := constantI S_ 1 1#1
  let main_v12 : IVec S_ 1 := (fun x v => Host.reduce IntOp.andi x v reducesTo_S1433x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S10000x1433 : Shape := ⟨2, ![10000, 1433]⟩
abbrev S10000x10000 : Shape := ⟨2, ![10000, 10000]⟩
abbrev S1433x256 : Shape := ⟨2, ![1433, 256]⟩
abbrev S256 : Shape := ⟨1, ![256]⟩
abbrev S256x7 : Shape := ⟨2, ![256, 7]⟩
abbrev S7 : Shape := ⟨1, ![7]⟩
abbrev S_ : Shape := ⟨0, ![]⟩
abbrev S256x128 : Shape := ⟨2, ![256, 128]⟩
abbrev S1 : Shape := ⟨1, ![1]⟩
abbrev S1x128 : Shape := ⟨2, ![1, 128]⟩
abbrev S2 : Shape := ⟨1, ![2]⟩
abbrev S1x256 : Shape := ⟨2, ![1, 256]⟩
abbrev S10000x256 : Shape := ⟨2, ![10000, 256]⟩
abbrev S1000x1433 : Shape := ⟨2, ![1000, 1433]⟩
abbrev S1000x256 : Shape := ⟨2, ![1000, 256]⟩
abbrev S10000x128 : Shape := ⟨2, ![10000, 128]⟩
abbrev S50x200x10000 : Shape := ⟨3, ![50, 200, 10000]⟩
abbrev S200x10000 : Shape := ⟨2, ![200, 10000]⟩
abbrev S200x128 : Shape := ⟨2, ![200, 128]⟩
abbrev S1x200x10000 : Shape := ⟨3, ![1, 200, 10000]⟩
abbrev S200x256 : Shape := ⟨2, ![200, 256]⟩
abbrev S10000x7 : Shape := ⟨2, ![10000, 7]⟩

abbrev nBuf : Space → Nat
  | .hbm => 26
  | .vmem => 20
  | .smem => 0
  | _ => 0

abbrev bufTy : (tb : Table) → Fin (tcTables nBuf tb) → BufTy
  | .hbm, ⟨0, _⟩ => ⟨S10000x1433, .f32⟩
  | .hbm, ⟨1, _⟩ => ⟨S10000x10000, .f32⟩
  | .hbm, ⟨2, _⟩ => ⟨S1433x256, .f32⟩
  | .hbm, ⟨3, _⟩ => ⟨S256, .f32⟩
  | .hbm, ⟨4, _⟩ => ⟨S256x7, .f32⟩
  | .hbm, ⟨5, _⟩ => ⟨S7, .f32⟩
  | .hbm, ⟨6, _⟩ => ⟨S_, .bf16⟩
  | .hbm, ⟨7, _⟩ => ⟨S256x128, .bf16⟩
  | .hbm, ⟨8, _⟩ => ⟨S256x7, .bf16⟩
  | .hbm, ⟨9, _⟩ => ⟨S_, .i32⟩
  | .hbm, ⟨10, _⟩ => ⟨S1, .i32⟩
  | .hbm, ⟨11, _⟩ => ⟨S256x128, .bf16⟩
  | .hbm, ⟨12, _⟩ => ⟨S_, .f32⟩
  | .hbm, ⟨13, _⟩ => ⟨S1x128, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S1x128, .f32⟩
  | .hbm, ⟨20, _⟩ => ⟨S1x256, .f32⟩
  | .hbm, ⟨21, _⟩ => ⟨S10000x256, .bf16⟩
  | .hbm, ⟨22, _⟩ => ⟨S10000x128, .bf16⟩
  | .hbm, ⟨23, _⟩ => ⟨S50x200x10000, .bf16⟩
  | .hbm, ⟨24, _⟩ => ⟨S10000x128, .f32⟩
  | .hbm, ⟨25, _⟩ => ⟨S10000x7, .f32⟩
  | .local _ .vmem, ⟨0, _⟩ => ⟨S1000x1433, .f32⟩
  | .local _ .vmem, ⟨1, _⟩ => ⟨S1000x1433, .f32⟩
  | .local _ .vmem, ⟨2, _⟩ => ⟨S1433x256, .f32⟩
  | .local _ .vmem, ⟨3, _⟩ => ⟨S1000x256, .bf16⟩
  | .local _ .vmem, ⟨4, _⟩ => ⟨S1000x256, .bf16⟩
  | .local _ .vmem, ⟨5, _⟩ => ⟨S200x10000, .f32⟩
  | .local _ .vmem, ⟨6, _⟩ => ⟨S200x10000, .f32⟩
  | .local _ .vmem, ⟨7, _⟩ => ⟨S10000x256, .bf16⟩
  | .local _ .vmem, ⟨8, _⟩ => ⟨S1x256, .f32⟩
  | .local _ .vmem, ⟨9, _⟩ => ⟨S256x128, .bf16⟩
  | .local _ .vmem, ⟨10, _⟩ => ⟨S200x128, .bf16⟩
  | .local _ .vmem, ⟨11, _⟩ => ⟨S200x128, .bf16⟩
  | .local _ .vmem, ⟨12, _⟩ => ⟨S1x200x10000, .bf16⟩
  | .local _ .vmem, ⟨13, _⟩ => ⟨S1x200x10000, .bf16⟩
  | .local _ .vmem, ⟨14, _⟩ => ⟨S1x200x10000, .bf16⟩
  | .local _ .vmem, ⟨15, _⟩ => ⟨S1x200x10000, .bf16⟩
  | .local _ .vmem, ⟨16, _⟩ => ⟨S10000x128, .bf16⟩
  | .local _ .vmem, ⟨17, _⟩ => ⟨S1x128, .f32⟩
  | .local _ .vmem, ⟨18, _⟩ => ⟨S200x128, .f32⟩
  | .local _ .vmem, ⟨19, _⟩ => ⟨S200x128, .f32⟩
  | _, _ => ⟨S10000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x200x10000 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x200x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S200x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S256x128 : S_.BroadcastsInDim S256x128 (![] : Fin 0 → Fin S256x128.rank)
  bitsLt_bf16_f32 : FTy.bits .bf16 < FTy.bits .f32
  bcast_S_S1 : S_.BroadcastsInDim S1 (![] : Fin 0 → Fin S1.rank)
  bcast_S_S1x128 : S_.BroadcastsInDim S1x128 (![] : Fin 0 → Fin S1x128.rank)
  concatenates_S1_S1_S2_d0 : Shape.Concatenates [S1, S1] S2 0
  shapeCasts_S256_S1x256 : S256.ShapeCasts S1x256
  inb_S1000x1433_S1000x1433_0_0 : ∀ a, (![0, 0] : Fin 2 → Nat) a + S1000x1433.size a ≤ S1000x1433.size a
  h_S1000x1433 : 0 < S1000x1433.numel
  inb_S1433x256_S1433x256_0_0 : ∀ a, (![0, 0] : Fin 2 → Nat) a + S1433x256.size a ≤ S1433x256.size a
  h_S1433x256 : 0 < S1433x256.numel
  inb_S1000x256_S1000x256_0_0 : ∀ a, (![0, 0] : Fin 2 → Nat) a + S1000x256.size a ≤ S1000x256.size a
  h_S1000x256 : 0 < S1000x256.numel
  packedbf16_S1000x256_S1000x256_0_0 : (Rect.unit (s := S1000x256) ![0, 0] S1000x256.size inb_S1000x256_S1000x256_0_0).PackedRows (EltTy.packing .bf16)
  inb_S200x10000_S200x10000_0_0 : ∀ a, (![0, 0] : Fin 2 → Nat) a + S200x10000.size a ≤ S200x10000.size a
  h_S200x10000 : 0 < S200x10000.numel
  inb_S1x200x10000_S1x200x10000_0_0_0 : ∀ a, (![0, 0, 0] : Fin 3 → Nat) a + S1x200x10000.size a ≤ S1x200x10000.size a
  h_S1x200x10000 : 0 < S1x200x10000.numel
  shapeCasts_S1x200x10000_S200x10000 : S1x200x10000.ShapeCasts S200x10000
  shapeCasts_S200x10000_S1x200x10000 : S200x10000.ShapeCasts S1x200x10000
  packedbf16_S1x200x10000_S1x200x10000_0_0_0 : (Rect.unit (s := S1x200x10000) ![0, 0, 0] S1x200x10000.size inb_S1x200x10000_S1x200x10000_0_0_0).PackedRows (EltTy.packing .bf16)
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S200x128_S200x128_0_0 : ∀ a, (![0, 0] : Fin 2 → Nat) a + S200x128.size a ≤ S200x128.size a
  h_S200x128 : 0 < S200x128.numel
  packedbf16_S200x128_S200x128_0_0 : (Rect.unit (s := S200x128) ![0, 0] S200x128.size inb_S200x128_S200x128_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  slices_S10000x128_S10000x7_0_0 : S10000x128.Slices ![0, 0] S10000x7
  scatter_S256x128_S1_S256x7_01_n_1_0_wf : ScatterDims.WF S256x128 S1 S256x7 [0, 1] [] [1] 0
  scatter_S1x128_S2_S7_0_0_01_0_wf : ScatterDims.WF S1x128 S2 S7 [0] [0] [0, 1] 0
  dot_S1000x1433_S1433x256_S1000x256_1_0_0_1_n_n_wf : DotDims.WF S1000x1433 S1433x256 S1000x256 [1] [0] [0] [1] [] []
  dot_S200x10000_S10000x256_S200x256_1_0_0_1_n_n_wf : DotDims.WF S200x10000 S10000x256 S200x256 [1] [0] [0] [1] [] []
  dot_S200x256_S256x128_S200x128_1_0_0_1_n_n_wf : DotDims.WF S200x256 S256x128 S200x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1433.size a ≤ S10000x1433.size a
  hwx0_0 : ∀ i : grid0.Coords, EltTy.bits .f32 = 32 ∨ (Rect.block (s := S10000x1433) S1000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x256.size a ≤ S1433x256.size a
  hwx0_1 : ∀ i : grid0.Coords, EltTy.bits .f32 = 32 ∨ (Rect.block (s := S1433x256) S1433x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S10000x256.size a
  hwx0_2 : ∀ i : grid0.Coords, EltTy.bits .bf16 = 32 ∨ (Rect.block (s := S10000x256) S1000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x128.size a ≤ S10000x128.size a
  hwx1_4 : ∀ i : grid1.Coords, EltTy.bits .bf16 = 32 ∨ (Rect.block (s := S10000x128) S200x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x200x10000.size a ≤ S50x200x10000.size a
  hwx1_5 : ∀ i : grid1.Coords, EltTy.bits .bf16 = 32 ∨ (Rect.block (s := S50x200x10000) S1x200x10000.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x200x10000.size a ≤ S50x200x10000.size a
  hwx2_0 : ∀ i : grid2.Coords, EltTy.bits .bf16 = 32 ∨ (Rect.block (s := S50x200x10000) S1x200x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S200x128.size a ≤ S10000x128.size a
  hwx2_3 : ∀ i : grid2.Coords, EltTy.bits .f32 = 32 ∨ (Rect.block (s := S10000x128) S200x128.size (cc2_transform_3 i) (hinb2_3 i)).WholeWords (EltTy.packing .f32)

variable [Facts₀]

def scatter_S256x128_S1_S256x7_01_n_1_0 : ScatterDims S256x128 S1 S256x7 where
  updateWindowDims := [0, 1]
  insertedWindowDims := []
  scatterDimsToOperandDims := [1]
  indexVectorDim := 0
  wf := scatter_S256x128_S1_S256x7_01_n_1_0_wf
def scatter_S1x128_S2_S7_0_0_01_0 : ScatterDims S1x128 S2 S7 where
  updateWindowDims := [0]
  insertedWindowDims := [0]
  scatterDimsToOperandDims := [0, 1]
  indexVectorDim := 0
  wf := scatter_S1x128_S2_S7_0_0_01_0_wf
def dot_S1000x1433_S1433x256_S1000x256_1_0_0_1_n_n : DotDims S1000x1433 S1433x256 S1000x256 where
  lhsContracting := [1]
  rhsContracting := [0]
  lhsNonContracting := [0]
  rhsNonContracting := [1]
  lhsBatch := []
  rhsBatch := []
  wf := dot_S1000x1433_S1433x256_S1000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S200x256_S256x128_S200x128_1_0_0_1_n_n : DotDims S200x256 S256x128 S200x128 where
  lhsContracting := [1]
  rhsContracting := [0]
  lhsNonContracting := [0]
  rhsNonContracting := [1]
  lhsBatch := []
  rhsBatch := []
  wf := dot_S200x256_S256x128_S200x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S1000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1433x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11_0) S200x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v11_1) S1x200x10000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v11_1) S1x200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11_0) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S200x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x1433 : Shape := ⟨2, ![10000, 1433]⟩
abbrev S10000x10000 : Shape := ⟨2, ![10000, 10000]⟩
abbrev S1433x256 : Shape := ⟨2, ![1433, 256]⟩
abbrev S256 : Shape := ⟨1, ![256]⟩
abbrev S256x7 : Shape := ⟨2, ![256, 7]⟩
abbrev S7 : Shape := ⟨1, ![7]⟩
abbrev S10000x256 : Shape := ⟨2, ![10000, 256]⟩
abbrev S1x256 : Shape := ⟨2, ![1, 256]⟩
abbrev S_ : Shape := ⟨0, ![]⟩
abbrev S10000x7 : Shape := ⟨2, ![10000, 7]⟩
abbrev S1x7 : Shape := ⟨2, ![1, 7]⟩

abbrev nBuf : Space → Nat
  | .hbm => 19
  | .vmem => 0
  | .smem => 0
  | _ => 0

abbrev bufTy : (tb : Table) → Fin (tcTables nBuf tb) → BufTy
  | .hbm, ⟨0, _⟩ => ⟨S10000x1433, .f32⟩
  | .hbm, ⟨1, _⟩ => ⟨S10000x10000, .f32⟩
  | .hbm, ⟨2, _⟩ => ⟨S1433x256, .f32⟩
  | .hbm, ⟨3, _⟩ => ⟨S256, .f32⟩
  | .hbm, ⟨4, _⟩ => ⟨S256x7, .f32⟩
  | .hbm, ⟨5, _⟩ => ⟨S7, .f32⟩
  | .hbm, ⟨6, _⟩ => ⟨S10000x256, .f32⟩
  | .hbm, ⟨7, _⟩ => ⟨S10000x256, .f32⟩
  | .hbm, ⟨8, _⟩ => ⟨S1x256, .f32⟩
  | .hbm, ⟨9, _⟩ => ⟨S10000x256, .f32⟩
  | .hbm, ⟨10, _⟩ => ⟨S10000x256, .f32⟩
  | .hbm, ⟨11, _⟩ => ⟨S_, .f32⟩
  | .hbm, ⟨12, _⟩ => ⟨S10000x256, .f32⟩
  | .hbm, ⟨13, _⟩ => ⟨S10000x256, .f32⟩
  | .hbm, ⟨14, _⟩ => ⟨S10000x7, .f32⟩
  | .hbm, ⟨15, _⟩ => ⟨S10000x7, .f32⟩
  | .hbm, ⟨16, _⟩ => ⟨S1x7, .f32⟩
  | .hbm, ⟨17, _⟩ => ⟨S10000x7, .f32⟩
  | .hbm, ⟨18, _⟩ => ⟨S10000x7, .f32⟩
  | _, _ => ⟨S10000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  dot_S10000x1433_S1433x256_S10000x256_1_0_0_1_n_n_wf : DotDims.WF S10000x1433 S1433x256 S10000x256 [1] [0] [0] [1] [] []
  dot_S10000x10000_S10000x256_S10000x256_1_0_0_1_n_n_wf : DotDims.WF S10000x10000 S10000x256 S10000x256 [1] [0] [0] [1] [] []
  dot_S10000x256_S256x7_S10000x7_1_0_0_1_n_n_wf : DotDims.WF S10000x256 S256x7 S10000x7 [1] [0] [0] [1] [] []
  dot_S10000x10000_S10000x7_S10000x7_1_0_0_1_n_n_wf : DotDims.WF S10000x10000 S10000x7 S10000x7 [1] [0] [0] [1] [] []

variable [Facts₀]

def dot_S10000x1433_S1433x256_S10000x256_1_0_0_1_n_n : DotDims S10000x1433 S1433x256 S10000x256 where
  lhsContracting := [1]
  rhsContracting := [0]
  lhsNonContracting := [0]
  rhsNonContracting := [1]
  lhsBatch := []
  rhsBatch := []
  wf := dot_S10000x1433_S1433x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x7_S10000x7_1_0_0_1_n_n : DotDims S10000x256 S256x7 S10000x7 where
  lhsContracting := [1]
  rhsContracting := [0]
  lhsNonContracting := [0]
  rhsNonContracting := [1]
  lhsBatch := []
  rhsBatch := []
  wf := dot_S10000x256_S256x7_S10000x7_1_0_0_1_n_n_wf
def dot_S10000x10000_S10000x7_S10000x7_1_0_0_1_n_n : DotDims S10000x10000 S10000x7 S10000x7 where
  lhsContracting := [1]
  rhsContracting := [0]
  lhsNonContracting := [0]
  rhsNonContracting := [1]
  lhsBatch := []
  rhsBatch := []
  wf := dot_S10000x10000_S10000x7_S10000x7_1_0_0_1_n_n_wf

class Facts : Prop extends Facts₀ where

variable [Facts]
-- ==== Proof.KernelRun.lean ====
/-
  The idealized kernel's run with its result named.

  @main is five segments: the host operations that pad the second layer's operands, the three pallas_calls, and the
  final column slice. The buffer contents at the segment boundaries are the fold W0 … W5 through @main; every
  weakly fair execution terminates, without a fault, in a state whose unscoped buffers hold W5. Read at the result
  buffer and at the six arguments this is the run below: the result is W5's contents, the arguments are as launched.
-/
import proofs.«131359_g78700980732397_cont_9to1_m_426_5_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and every argument as launched. -/
theorem run_named : θ_run defs (onTc (τ := τ) (main (F := F))) ⟨m, fun _ => 0, ρ⟩ (fun r => ∀ c : Dev nD,
      r.2.mem ((c.tc : Thread nD τ).loc main_v13) = W5 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v13 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Net

end
-- ==== Proof.GcnSpec.lean ====
/-
  A two-layer graph convolution with a dense adjacency, as functions of an index on the extended reals.

  For a feature array x [N, I], an adjacency a [N, N], weights w1 [I, H] and w2 [H, B] and bias rows b1 [1, H] and
  b2 [1, B] the network is
        out = a · (max (a · (x · w1) + b1, 0) · w2) + b2,
  every product the textbook sum over the contracted index and each bias row added to every row. It is built
  from three stages, each a function of the output index:

  * `prod l r`      — the plain product  [A, K] · [K, B];
  * `rect a u b`    — the rectified layer  max (a · u + b, 0);
  * `aff a w b`     — the affine layer  a · w + b.

  Each stage at an index (r, c) reads row r of its left operand, column c of its right operand and entry c of
  its bias row, and nothing else (`prod_congr`, `rect_congr`, `aff_congr`). That one fact is used twice: a block
  of rows of a stage's result is the stage of the same block of rows of the left operand; and the first columns
  of the result do not see what the right operand and the bias hold in their other columns, so widening w2 and b2
  with extra columns changes nothing in the columns that were there (`net_congr`).

  Nothing here depends on a program.
-/
import Idealize.ShloMosaic.Lib.ValueIdx
import Idealize.ShloMosaic.PureOps.Ideal.Laws

noncomputable section

open scoped BigOperators

namespace Cert.Gcn

open Idealize.ShloMosaic Idealize.ShloMosaic.ValueIdx

variable {A A' K B B' : Nat}

/-- The plain product at the output index (r, c): the sum over k of l (r, k) · r (k, c). -/
def prod (l : (⟨2, ![A, K]⟩ : Shape).Idx → EReal) (r : (⟨2, ![K, B]⟩ : Shape).Idx → EReal) :
    (⟨2, ![A, B]⟩ : Shape).Idx → EReal :=
  fun j => ∑ k : Fin K, l (ix2 (j 0) k) * r (ix2 k (j 1))

/-- Two products agree at two indices where the left operands' rows and the right operands' columns agree. -/
theorem prod_congr (l : (⟨2, ![A, K]⟩ : Shape).Idx → EReal) (l' : (⟨2, ![A', K]⟩ : Shape).Idx → EReal)
    (r : (⟨2, ![K, B]⟩ : Shape).Idx → EReal) (r' : (⟨2, ![K, B']⟩ : Shape).Idx → EReal)
    (j : (⟨2, ![A, B]⟩ : Shape).Idx) (j' : (⟨2, ![A', B']⟩ : Shape).Idx)
    (hl : ∀ k, l (ix2 (j 0) k) = l' (ix2 (j' 0) k)) (hr : ∀ k, r (ix2 k (j 1)) = r' (ix2 k (j' 1))) :
    prod l r j = prod l' r' j' :=
  Finset.sum_congr rfl fun k _ => by rw [hl k, hr k]

/-- The rectified layer at (r, c): max ((a · u) (r, c) + b (0, c), 0). -/
def rect (a : (⟨2, ![A, K]⟩ : Shape).Idx → EReal) (u : (⟨2, ![K, B]⟩ : Shape).Idx → EReal)
    (b : (⟨2, ![1, B]⟩ : Shape).Idx → EReal) : (⟨2, ![A, B]⟩ : Shape).Idx → EReal :=
  fun j => max (prod a u j + b (ix2 0 (j 1))) 0

theorem rect_congr (a : (⟨2, ![A, K]⟩ : Shape).Idx → EReal) (a' : (⟨2, ![A', K]⟩ : Shape).Idx → EReal)
    (u : (⟨2, ![K, B]⟩ : Shape).Idx → EReal) (u' : (⟨2, ![K, B']⟩ : Shape).Idx → EReal)
    (b : (⟨2, ![1, B]⟩ : Shape).Idx → EReal) (b' : (⟨2, ![1, B']⟩ : Shape).Idx → EReal)
    (j : (⟨2, ![A, B]⟩ : Shape).Idx) (j' : (⟨2, ![A', B']⟩ : Shape).Idx)
    (ha : ∀ k, a (ix2 (j 0) k) = a' (ix2 (j' 0) k)) (hu : ∀ k, u (ix2 k (j 1)) = u' (ix2 k (j' 1)))
    (hb : b (ix2 0 (j 1)) = b' (ix2 0 (j' 1))) : rect a u b j = rect a' u' b' j' := by
  unfold rect
  rw [prod_congr a a' u u' j j' ha hu, hb]

/-- The affine layer at (r, c): (a · w) (r, c) + b (0, c). -/
def aff (a : (⟨2, ![A, K]⟩ : Shape).Idx → EReal) (w : (⟨2, ![K, B]⟩ : Shape).Idx → EReal)
    (b : (⟨2, ![1, B]⟩ : Shape).Idx → EReal) : (⟨2, ![A, B]⟩ : Shape).Idx → EReal :=
  fun j => prod a w j + b (ix2 0 (j 1))

theorem aff_congr (a : (⟨2, ![A, K]⟩ : Shape).Idx → EReal) (a' : (⟨2, ![A', K]⟩ : Shape).Idx → EReal)
    (w : (⟨2, ![K, B]⟩ : Shape).Idx → EReal) (w' : (⟨2, ![K, B']⟩ : Shape).Idx → EReal)
    (b : (⟨2, ![1, B]⟩ : Shape).Idx → EReal) (b' : (⟨2, ![1, B']⟩ : Shape).Idx → EReal)
    (j : (⟨2, ![A, B]⟩ : Shape).Idx) (j' : (⟨2, ![A', B']⟩ : Shape).Idx)
    (ha : ∀ k, a (ix2 (j 0) k) = a' (ix2 (j' 0) k)) (hw : ∀ k, w (ix2 k (j 1)) = w' (ix2 k (j' 1)))
    (hb : b (ix2 0 (j 1)) = b' (ix2 0 (j' 1))) : aff a w b j = aff a' w' b' j' := by
  unfold aff
  rw [prod_congr a a' w w' j j' ha hw, hb]

variable {N I H : Nat}

/-- The whole network: out = a · (max (a · (x · w1) + b1, 0) · w2) + b2. -/
def net (x : (⟨2, ![N, I]⟩ : Shape).Idx → EReal) (a : (⟨2, ![N, N]⟩ : Shape).Idx → EReal)
    (w1 : (⟨2, ![I, H]⟩ : Shape).Idx → EReal) (b1 : (⟨2, ![1, H]⟩ : Shape).Idx → EReal)
    (w2 : (⟨2, ![H, B]⟩ : Shape).Idx → EReal) (b2 : (⟨2, ![1, B]⟩ : Shape).Idx → EReal) :
    (⟨2, ![N, B]⟩ : Shape).Idx → EReal :=
  aff a (prod (rect a (prod x w1) b1) w2) b2

/-- The network at (r, c) reads only column c of the second weight matrix and entry c of the second bias row: two
    networks that differ only in those two operands (of possibly different widths) agree at two indices with one
    row where that column and that entry agree. -/
theorem net_congr (x : (⟨2, ![N, I]⟩ : Shape).Idx → EReal) (a : (⟨2, ![N, N]⟩ : Shape).Idx → EReal)
    (w1 : (⟨2, ![I, H]⟩ : Shape).Idx → EReal) (b1 : (⟨2, ![1, H]⟩ : Shape).Idx → EReal)
    (w2 : (⟨2, ![H, B]⟩ : Shape).Idx → EReal) (b2 : (⟨2, ![1, B]⟩ : Shape).Idx → EReal)
    (w2' : (⟨2, ![H, B']⟩ : Shape).Idx → EReal) (b2' : (⟨2, ![1, B']⟩ : Shape).Idx → EReal)
    (j : (⟨2, ![N, B]⟩ : Shape).Idx) (j' : (⟨2, ![N, B']⟩ : Shape).Idx) (hrow : j 0 = j' 0)
    (hw : ∀ k, w2 (ix2 k (j 1)) = w2' (ix2 k (j' 1))) (hb : b2 (ix2 0 (j 1)) = b2' (ix2 0 (j' 1))) :
    net x a w1 b1 w2 b2 j = net x a w1 b1 w2' b2' j' := by
  unfold net
  refine aff_congr a a _ _ b2 b2' j j' (fun k => by rw [hrow]) (fun k => ?_) hb
  exact prod_congr _ _ w2 w2' _ _ (fun _ => rfl) hw

end Cert.Gcn

end
-- ==== Proof.GcnStack.lean ====
/-
  The adjacency's 10000 rows kept as 50 slabs of 200 rows.

  `stack a` holds a (200·s + r, c) at (s, r, c); `unstack` reads such a stack back as a matrix, row i from slab
  i / 200, row i % 200 of the slab. Reading back what was stacked is the matrix itself: 200·(i / 200) + i % 200 = i.

  Nothing here depends on a program.
-/
import Idealize.ShloMosaic.Lib.ValueIdx
import Idealize.ShloMosaic.PureOps.Ideal.Laws

noncomputable section

namespace Cert.Gcn

open Idealize.ShloMosaic Idealize.ShloMosaic.ValueIdx

/-- Row 200·s + r of the matrix, for slab s < 50 and row r < 200 of the slab. -/
def slabRow (s : Fin 50) (r : Fin 200) : Fin 10000 := ⟨200 * s.val + r.val, by have := s.isLt; have := r.isLt; omega⟩

/-- The matrix as 50 slabs of 200 rows. -/
def stack (a : (⟨2, ![10000, 10000]⟩ : Shape).Idx → EReal) : (⟨3, ![50, 200, 10000]⟩ : Shape).Idx → EReal :=
  fun i => a (ix2 (slabRow (i 0) (i 1)) (i 2))

/-- A stack of 50 slabs of 200 rows read as a matrix of 10000 rows. -/
def unstack (s : (⟨3, ![50, 200, 10000]⟩ : Shape).Idx → EReal) : (⟨2, ![10000, 10000]⟩ : Shape).Idx → EReal :=
  fun i => s (ix3 (⟨(i 0).val / 200, by have h : (i 0).val < 10000 := (i 0).isLt; omega⟩ : Fin 50)
    (⟨(i 0).val % 200, Nat.mod_lt _ (by decide)⟩ : Fin 200) (i 1))

/-- Reading back what was stacked is the matrix. -/
theorem unstack_stack (a : (⟨2, ![10000, 10000]⟩ : Shape).Idx → EReal) : unstack (stack a) = a := by
  funext i
  show a (ix2 (slabRow ⟨(i 0).val / 200, _⟩ ⟨(i 0).val % 200, _⟩) (i 1)) = a i
  refine congrArg a (funext fun d => Fin.ext ?_)
  match d with
  | ⟨0, _⟩ => show 200 * ((i 0).val / 200) + (i 0).val % 200 = (i 0).val; omega
  | ⟨1, _⟩ => rfl

end Cert.Gcn

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.Feat.lean ====
/-
  The first pallas_call: the feature product u = x · w1, ten blocks of 1000 rows.

  At each grid point t the body loads rows 1000·t … 1000·t + 999 of x and the whole of w1, multiplies them into a
  zero accumulator and stores the product as block t of u. A product at (r, c) reads only row r of its left
  operand, so the block's product is the same block of rows of the whole product x · w1; the ten blocks tile the
  10000 rows, and so after the call the array u holds x · w1 of whatever the call found in x and w1.
-/
import proofs.«131359_g78700980732397_cont_9to1_m_426_5_alg».proof.Proof.Gen.KernelIdeal.Frame
import proofs.«131359_g78700980732397_cont_9to1_m_426_5_alg».proof.Proof.GcnSpec
import proofs.«131359_g78700980732397_cont_9to1_m_426_5_alg».proof.Proof.LibPlainDot
import Idealize.ShloMosaic.Lib.Pipeline.Value
import Idealize.ShloMosaic.Lib.ValueIdx

set_option maxRecDepth 16384

noncomputable section

namespace Cert.KernelIdeal.Feat

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks: rounding to bf16 is the identity on the
    extended reals and the accumulator is zero. -/
theorem pay_eq (x0 : Vec Ideal S1000x1433 .f32) (x1 : Vec Ideal S1433x256 .f32) :
    k0_pay1 x0 x1 = Gcn.prod x0 x1 := by
  funext j
  have e := Cert.Lib.PlainDot.eq_plain dot_S1000x1433_S1433x256_S1000x256_1_0_0_1_n_n rfl rfl rfl rfl rfl rfl
  show @matmul Ideal _ S1000x1433 S1433x256 S1000x256 .bf16 .bf16 dot_S1000x1433_S1433x256_S1000x256_1_0_0_1_n_n none
      x0 x1 (constant S1000x256 .f32 0x00000000#32) j = _
  rw [e]
  exact Cert.Lib.PlainDot.matmul_zero_plain_apply (φ₁ := .bf16) (φ₂ := .bf16) none x0 x1 j

/-- The index maps over the grid: the x window moves with the output window down the rows; every other block
    index is 0. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every block of rows is some point's. -/
theorem idx_onto : ∀ q : Fin 10, ∃ t : Fin cfg0.N, win0_2.index t = ![q.val, 0] :=
  (by decide +kernel : ∀ q : Fin 10, ∃ t : Fin grid0.N, win0_2.index t = ![q.val, 0])

/-- What point t writes back is block t of the whole product. -/
theorem flushed_eq (c : Dev nD) (t : Fin cfg0.N) :
    (dat0 V c).flushed 2 t
      = ((cfg0.win 2).blk t).view.read (Elt Ideal) (Gcn.prod (V c main_arg0) (V c main_arg2)) := by
  show (cfg0.win 2).cut (grid0.coords t) ((dat0 V c).after 2 t) = _
  rw [after0_2]
  unfold out0_2
  rw [View.canon_unit_zero hz]
  simp only [View.ld_unit_zero (S := S1000x1433) hz, View.ld_unit_zero (S := S1433x256) hz]
  rw [pay_eq]
  obtain ⟨e0, e1, e2, e3, e4⟩ := idx_facts t
  funext j
  show Gcn.prod (iblk0 V c 0 t) (iblk0 V c 1 t) j
    = Gcn.prod (V c main_arg0) (V c main_arg2) (((cfg0.win 2).blk t).view.emb j)
  refine Gcn.prod_congr _ _ _ _ _ _ (fun k => ?_) (fun k => ?_)
  · show V c main_arg0 (((cfg0.win 0).blk t).view.emb (ix2 (j 0) k))
      = V c main_arg0 (ix2 ((((cfg0.win 2).blk t).view.emb j) 0) k)
    refine congrArg (V c main_arg0) (funext fun a => Fin.ext ?_)
    match a with
    | ⟨0, _⟩ =>
      show win0_0.index t (0 : Fin 2) * 1000 + 1 * (j 0).val = win0_2.index t (0 : Fin 2) * 1000 + 1 * (j 0).val
      omega
    | ⟨1, _⟩ =>
      show win0_0.index t (1 : Fin 2) * 1433 + 1 * k.val = k.val
      omega
  · show V c main_arg2 (((cfg0.win 1).blk t).view.emb (ix2 k (j 1)))
      = V c main_arg2 (ix2 k ((((cfg0.win 2).blk t).view.emb j) 1))
    refine congrArg (V c main_arg2) (funext fun a => Fin.ext ?_)
    match a with
    | ⟨0, _⟩ =>
      show win0_1.index t (0 : Fin 2) * 1433 + 1 * k.val = k.val
      omega
    | ⟨1, _⟩ =>
      show win0_1.index t (1 : Fin 2) * 256 + 1 * (j 1).val = win0_2.index t (1 : Fin 2) * 256 + 1 * (j 1).val
      omega

/-- An index of u is in point t's block iff each coordinate is in the block's range on its axis. -/
theorem mem_blk (t : Fin cfg0.N) (i : S10000x256.Idx) :
    i ∈ ((cfg0.win 2).blk t).view.set ↔ ∀ a : Fin 2, win0_2.index t a * S1000x256.size a ≤ (i a).val
      ∧ (i a).val < win0_2.index t a * S1000x256.size a + S1000x256.size a := by
  show i ∈ ((View.whole main_v10).slice (win0_2.rect t)).set ↔ _
  rw [View.set_slice_whole, Rect.mem_set_unit]
  exact Iff.rfl

/-- The ten blocks cover u: row r is in the block of point r / 1000. -/
theorem cover (i : S10000x256.Idx) :
    ∃ t : Fin cfg0.N, (cfg0.win 2).flush t = true ∧ i ∈ ((cfg0.win 2).blk t).view.set := by
  have hi0 : (i 0).val < 10000 := (i 0).isLt
  have hi1 : (i 1).val < 256 := (i 1).isLt
  obtain ⟨t, ht⟩ := idx_onto ⟨(i 0).val / 1000, by omega⟩
  have q0 : win0_2.index t (0 : Fin 2) = (i 0).val / 1000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 1000 ≤ (i 0).val ∧ (i 0).val < win0_2.index t (0 : Fin 2) * 1000 + 1000
    omega
  | ⟨1, _⟩ =>
    show win0_2.index t (1 : Fin 2) * 256 ≤ (i 1).val ∧ (i 1).val < win0_2.index t (1 : Fin 2) * 256 + 256
    omega

/-- After the call, u is the product of the x and w1 the call found. -/
theorem arr (c : Dev nD) :
    (dat0 V c).arrAt 2 cfg0.N = Gcn.prod (V c main_arg0) (V c main_arg2) :=
  (dat0 V c).arrAt_eq_of_cover 2 _ (fun t _ => flushed_eq V c t) cover

end Cert.KernelIdeal.Feat

end
-- ==== Proof.Layer1.lean ====
/-
  The second pallas_call: the first layer and the projection, fifty blocks of 200 rows, with the adjacency's
  rows set aside slab by slab.

  At grid point t the body loads rows 200·t … 200·t + 199 of the adjacency a, the whole feature product u, the bias
  row b1 and the widened second weight matrix w2. It stores the adjacency rows unchanged as slab t of a stack of 50
  slabs, and stores (max (a_t · u + b1, 0)) · w2 as block t of the projection w. A product or a rectified layer at
  (r, c) reads only row r of its left operand, so each block is the same block of rows of the whole function; the
  fifty blocks tile the 10000 rows. After the call: the stack is the adjacency the call found, slab by slab, and
  w = (max (a · u + b1, 0)) · w2 of what the call found in a, u, b1 and w2.
-/
import proofs.«131359_g78700980732397_cont_9to1_m_426_5_alg».proof.Proof.Gen.KernelIdeal.Frame
import proofs.«131359_g78700980732397_cont_9to1_m_426_5_alg».proof.Proof.GcnSpec
import proofs.«131359_g78700980732397_cont_9to1_m_426_5_alg».proof.Proof.LibPlainDot
import Idealize.ShloMosaic.Lib.Pipeline.Value
import Idealize.ShloMosaic.Lib.ValueIdx
import proofs.«131359_g78700980732397_cont_9to1_m_426_5_alg».proof.Proof.GcnStack
import Idealize.ShloMosaic.Lib.ValueLayout
set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The hidden block: a matmul of the adjacency rows with u into the zero accumulator, plus the bias row on every
    row, maximum with zero, is the rectified layer of the loaded blocks. -/
theorem hid_eq (x0 : FVec Ideal S200x10000 .bf16) (x1 : FVec Ideal S10000x256 .bf16) (x2 : FVec Ideal S1x256 .f32) :
    maximumf (addf (@matmul Ideal _ S200x10000 S10000x256 S200x256 .bf16 .bf16
          dot_S200x10000_S10000x256_S200x256_1_0_0_1_n_n none x0 (shapeCast S10000x256 x1 shapeCasts_S10000x256_S10000x256)
          (constant S200x256 .f32 0x00000000#32))
        (broadcastTo S200x256 (shapeCast S1x256 x2 shapeCasts_S1x256_S1x256) broadcasts_S1x256_S200x256))
      (broadcast S200x256 (Scalar.ofBits (F := Ideal) .f32 0x00000000#32))
      = Gcn.rect x0 x1 x2 := by
  funext j
  rw [maximumf_apply, addf_apply, broadcast_apply, shapeCast_self, shapeCast_self]
  rw [Cert.Lib.PlainDot.eq_plain dot_S200x10000_S10000x256_S200x256_1_0_0_1_n_n rfl rfl rfl rfl rfl rfl]
  rw [Cert.Lib.PlainDot.matmul_zero_plain_apply (φ₁ := .bf16) (φ₂ := .bf16) none x0 x1 j]
  rw [broadcastTo_apply x2 broadcasts_S1x256_S200x256 j (ix2 0 (j 1)) (fun a => by
    match a with
    | ⟨0, _⟩ => show (0 : Nat) = if (1 : Nat) = 1 then 0 else _; rw [if_pos rfl]
    | ⟨1, _⟩ => show (j 1).val = if (256 : Nat) = 1 then 0 else (j 1).val; rw [if_neg (by decide)])]
  show max _ (Ideal.ofBits .f32 0x00000000#32) = _
  rw [Ideal.ofBits_zero_f32]
  rfl

/-- The projection block the body stores: the hidden block times the widened weight matrix. -/
theorem pay3_eq (x0 : Vec Ideal S200x10000 .f32) (x1 : Vec Ideal S10000x256 .bf16) (x2 : Vec Ideal S1x256 .f32)
    (x3 : Vec Ideal S256x128 .bf16) : k1_pay3 x0 x1 x2 x3 = Gcn.prod (Gcn.rect x0 x1 x2) x3 := by
  funext j
  refine (congrArg (fun hid : FVec Ideal S200x256 .bf16 =>
      @matmul Ideal _ S200x256 S256x128 S200x128 .bf16 .bf16 dot_S200x256_S256x128_S200x128_1_0_0_1_n_n none hid
        (shapeCast S256x128 (x3 : FVec Ideal S256x128 .bf16) shapeCasts_S256x128_S256x128)
        (constant S200x128 .f32 0x00000000#32) j) (hid_eq x0 x1 x2)).trans ?_
  rw [shapeCast_self]
  rw [Cert.Lib.PlainDot.eq_plain dot_S200x256_S256x128_S200x128_1_0_0_1_n_n rfl rfl rfl rfl rfl rfl]
  exact Cert.Lib.PlainDot.matmul_zero_plain_apply (φ₁ := .bf16) (φ₂ := .bf16) none _ x3 j

/-- The slab the body stores: the adjacency rows under a leading unit axis. -/
theorem pay2_apply (x0 : Vec Ideal S200x10000 .f32) (j : S1x200x10000.Idx) :
    k1_pay2 x0 j = x0 (fun a => j a.succ) :=
  shapeCast_addUnit_apply ![200, 10000] x0 shapeCasts_S200x10000_S1x200x10000 j

/-- The index maps over the grid: the adjacency window, the projection window and the slab window move together,
    one block of 200 rows per point; every other block index is 0. -/
theorem idx_facts : ∀ t : Fin cfg1.N, win1_0.index t (0 : Fin 2) = win1_4.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0
    ∧ win1_5.index t (0 : Fin 3) = win1_4.index t (0 : Fin 2)
    ∧ win1_5.index t (1 : Fin 3) = 0 ∧ win1_5.index t (2 : Fin 3) = 0 :=
  (by decide +kernel : ∀ t : Fin grid1.N, _)

/-- Every block of rows is some point's, for the projection and for the stack. -/
theorem idx_onto4 : ∀ q : Fin 50, ∃ t : Fin cfg1.N, win1_4.index t = ![q.val, 0] :=
  (by decide +kernel : ∀ q : Fin 50, ∃ t : Fin grid1.N, win1_4.index t = ![q.val, 0])
theorem idx_onto5 : ∀ q : Fin 50, ∃ t : Fin cfg1.N, win1_5.index t = ![q.val, 0, 0] :=
  (by decide +kernel : ∀ q : Fin 50, ∃ t : Fin grid1.N, win1_5.index t = ![q.val, 0, 0])

/-- What point t writes back to the projection is block t of the whole function. -/
theorem flushed4_eq (c : Dev nD) (t : Fin cfg1.N) :
    (dat1 V c).flushed 4 t = ((cfg1.win 4).blk t).view.read (Elt Ideal)
      (Gcn.prod (Gcn.rect (V c main_arg1) (V c main_v10) (V c main_v9)) (V c main_v3)) := by
  show (cfg1.win 4).cut (grid1.coords t) ((dat1 V c).after 4 t) = _
  rw [after1_4]
  unfold out1_4
  rw [View.canon_unit_zero hz2]
  simp only [View.ld_unit_zero (S := S200x10000) hz2, View.ld_unit_zero (S := S10000x256) hz2,
    View.ld_unit_zero (S := S1x256) hz2, View.ld_unit_zero (S := S256x128) hz2]
  rw [pay3_eq]
  obtain ⟨e0, e1, e2, e3, e4, e5, e6, e7, e8, e9, e10, e11⟩ := idx_facts t
  funext j
  show Gcn.prod (Gcn.rect (iblk1 V c 0 t) (iblk1 V c 1 t) (iblk1 V c 2 t)) (iblk1 V c 3 t) j
    = Gcn.prod (Gcn.rect (V c main_arg1) (V c main_v10) (V c main_v9)) (V c main_v3) (((cfg1.win 4).blk t).view.emb j)
  refine Gcn.prod_congr _ _ _ _ _ _ (fun k => ?_) (fun k => ?_)
  · refine Gcn.rect_congr _ _ _ _ _ _ _ _ (fun l => ?_) (fun l => ?_) ?_
    · show V c main_arg1 (((cfg1.win 0).blk t).view.emb (ix2 (j 0) l))
        = V c main_arg1 (ix2 ((((cfg1.win 4).blk t).view.emb j) 0) l)
      refine congrArg (V c main_arg1) (funext fun a => Fin.ext ?_)
      match a with
      | ⟨0, _⟩ =>
        show win1_0.index t (0 : Fin 2) * 200 + 1 * (j 0).val = win1_4.index t (0 : Fin 2) * 200 + 1 * (j 0).val
        omega
      | ⟨1, _⟩ =>
        show win1_0.index t (1 : Fin 2) * 10000 + 1 * l.val = l.val
        omega
    · show V c main_v10 (((cfg1.win 1).blk t).view.emb (ix2 l k)) = V c main_v10 (ix2 l k)
      refine congrArg (V c main_v10) (funext fun a => Fin.ext ?_)
      match a with
      | ⟨0, _⟩ => show win1_1.index t (0 : Fin 2) * 10000 + 1 * l.val = l.val; omega
      | ⟨1, _⟩ => show win1_1.index t (1 : Fin 2) * 256 + 1 * k.val = k.val; omega
    · show V c main_v9 (((cfg1.win 2).blk t).view.emb (ix2 0 k)) = V c main_v9 (ix2 0 k)
      refine congrArg (V c main_v9) (funext fun a => Fin.ext ?_)
      match a with
      | ⟨0, _⟩ => show win1_2.index t (0 : Fin 2) * 1 + 1 * 0 = 0; omega
      | ⟨1, _⟩ => show win1_2.index t (1 : Fin 2) * 256 + 1 * k.val = k.val; omega
  · show V c main_v3 (((cfg1.win 3).blk t).view.emb (ix2 k (j 1)))
      = V c main_v3 (ix2 k ((((cfg1.win 4).blk t).view.emb j) 1))
    refine congrArg (V c main_v3) (funext fun a => Fin.ext ?_)
    match a with
    | ⟨0, _⟩ => show win1_3.index t (0 : Fin 2) * 256 + 1 * k.val = k.val; omega
    | ⟨1, _⟩ =>
      show win1_3.index t (1 : Fin 2) * 128 + 1 * (j 1).val = win1_4.index t (1 : Fin 2) * 128 + 1 * (j 1).val
      omega

/-- What point t writes back to the stack is slab t of the stacked adjacency. -/
theorem flushed5_eq (c : Dev nD) (t : Fin cfg1.N) :
    (dat1 V c).flushed 5 t = ((cfg1.win 5).blk t).view.read (Elt Ideal) (Gcn.stack (V c main_arg1)) := by
  show (cfg1.win 5).cut (grid1.coords t) ((dat1 V c).after 5 t) = _
  rw [after1_5]
  unfold out1_5
  rw [View.canon_unit_zero hz3]
  simp only [View.ld_unit_zero (S := S200x10000) hz2]
  obtain ⟨e0, e1, e2, e3, e4, e5, e6, e7, e8, e9, e10, e11⟩ := idx_facts t
  funext j
  show k1_pay2 (iblk1 V c 0 t) j = Gcn.stack (V c main_arg1) (((cfg1.win 5).blk t).view.emb j)
  refine (pay2_apply _ j).trans ?_
  show V c main_arg1 (((cfg1.win 0).blk t).view.emb (fun a => j a.succ))
    = V c main_arg1 (ix2 (Gcn.slabRow ((((cfg1.win 5).blk t).view.emb j) 0) ((((cfg1.win 5).blk t).view.emb j) 1))
        ((((cfg1.win 5).blk t).view.emb j) 2))
  refine congrArg (V c main_arg1) (funext fun a => Fin.ext ?_)
  have hj0 : (j 0).val < 1 := (j 0).isLt
  match a with
  | ⟨0, _⟩ =>
    show win1_0.index t (0 : Fin 2) * 200 + 1 * (j 1).val
      = 200 * (win1_5.index t (0 : Fin 3) * 1 + 1 * (j 0).val) + (win1_5.index t (1 : Fin 3) * 200 + 1 * (j 1).val)
    omega
  | ⟨1, _⟩ =>
    show win1_0.index t (1 : Fin 2) * 10000 + 1 * (j 2).val = win1_5.index t (2 : Fin 3) * 10000 + 1 * (j 2).val
    omega

theorem mem_blk4 (t : Fin cfg1.N) (i : S10000x128.Idx) :
    i ∈ ((cfg1.win 4).blk t).view.set ↔ ∀ a : Fin 2, win1_4.index t a * S200x128.size a ≤ (i a).val
      ∧ (i a).val < win1_4.index t a * S200x128.size a + S200x128.size a := by
  show i ∈ ((View.whole main_v11_0).slice (win1_4.rect t)).set ↔ _
  rw [View.set_slice_whole, Rect.mem_set_unit]
  exact Iff.rfl

theorem mem_blk5 (t : Fin cfg1.N) (i : S50x200x10000.Idx) :
    i ∈ ((cfg1.win 5).blk t).view.set ↔ ∀ a : Fin 3, win1_5.index t a * S1x200x10000.size a ≤ (i a).val
      ∧ (i a).val < win1_5.index t a * S1x200x10000.size a + S1x200x10000.size a := by
  show i ∈ ((View.whole main_v11_1).slice (win1_5.rect t)).set ↔ _
  rw [View.set_slice_whole, Rect.mem_set_unit]
  exact Iff.rfl

/-- The fifty blocks cover the projection: row r is in the block of point r / 200. -/
theorem cover4 (i : S10000x128.Idx) :
    ∃ t : Fin cfg1.N, (cfg1.win 4).flush t = true ∧ i ∈ ((cfg1.win 4).blk t).view.set := by
  have hi0 : (i 0).val < 10000 := (i 0).isLt
  have hi1 : (i 1).val < 128 := (i 1).isLt
  obtain ⟨t, ht⟩ := idx_onto4 ⟨(i 0).val / 200, by omega⟩
  have q0 : win1_4.index t (0 : Fin 2) = (i 0).val / 200 := congrFun ht 0
  have q1 : win1_4.index t (1 : Fin 2) = 0 := congrFun ht 1
  refine ⟨t, flush1_4 t, ?_⟩
  rw [mem_blk4]
  intro a
  match a with
  | ⟨0, _⟩ =>
    show win1_4.index t (0 : Fin 2) * 200 ≤ (i 0).val ∧ (i 0).val < win1_4.index t (0 : Fin 2) * 200 + 200
    omega
  | ⟨1, _⟩ =>
    show win1_4.index t (1 : Fin 2) * 128 ≤ (i 1).val ∧ (i 1).val < win1_4.index t (1 : Fin 2) * 128 + 128
    omega

/-- The fifty slabs cover the stack: slab s is point s's block. -/
theorem cover5 (i : S50x200x10000.Idx) :
    ∃ t : Fin cfg1.N, (cfg1.win 5).flush t = true ∧ i ∈ ((cfg1.win 5).blk t).view.set := by
  have hi0 : (i 0).val < 50 := (i 0).isLt
  have hi1 : (i 1).val < 200 := (i 1).isLt
  have hi2 : (i 2).val < 10000 := (i 2).isLt
  obtain ⟨t, ht⟩ := idx_onto5 ⟨(i 0).val, hi0⟩
  have q0 : win1_5.index t (0 : Fin 3) = (i 0).val := congrFun ht 0
  have q1 : win1_5.index t (1 : Fin 3) = 0 := congrFun ht 1
  have q2 : win1_5.index t (2 : Fin 3) = 0 := congrFun ht 2
  refine ⟨t, flush1_5 t, ?_⟩
  rw [mem_blk5]
  intro a
  match a with
  | ⟨0, _⟩ =>
    show win1_5.index t (0 : Fin 3) * 1 ≤ (i 0).val ∧ (i 0).val < win1_5.index t (0 : Fin 3) * 1 + 1
    omega
  | ⟨1, _⟩ =>
    show win1_5.index t (1 : Fin 3) * 200 ≤ (i 1).val ∧ (i 1).val < win1_5.index t (1 : Fin 3) * 200 + 200
    omega
  | ⟨2, _⟩ =>
    show win1_5.index t (2 : Fin 3) * 10000 ≤ (i 2).val ∧ (i 2).val < win1_5.index t (2 : Fin 3) * 10000 + 10000
    omega

/-- After the call, the projection is (max (a · u + b1, 0)) · w2 of the operands the call found. -/
theorem arr_proj (c : Dev nD) : (dat1 V c).arrAt 4 cfg1.N
    = Gcn.prod (Gcn.rect (V c main_arg1) (V c main_v10) (V c main_v9)) (V c main_v3) :=
  (dat1 V c).arrAt_eq_of_cover 4 _ (fun t _ => flushed4_eq V c t) cover4

/-- After the call, the stack holds the adjacency the call found, slab by slab. -/
theorem arr_stack (c : Dev nD) : (dat1 V c).arrAt 5 cfg1.N = Gcn.stack (V c main_arg1) :=
  (dat1 V c).arrAt_eq_of_cover 5 _ (fun t _ => flushed5_eq V c t) cover5

end Cert.KernelIdeal.Layer1

end
-- ==== Proof.Layer2.lean ====
/-
  The third pallas_call: the second aggregation, fifty blocks of 200 rows, reading the adjacency from its stack.

  At grid point t the body loads slab t of the stack (200 rows of the adjacency), the whole projection w and the
  widened bias row b2, multiplies the slab with w into a zero accumulator, adds the bias row to every row and stores
  the result as block t of the output. Row r of block t is row 200·t + r of the matrix the stack is when read back
  (slab (200·t + r) / 200 = t, row (200·t + r) % 200 = r), and the affine layer at (r, c) reads only row r of its left
  operand; the fifty blocks tile the 10000 rows. After the call the output is (stack read back) · w + b2 of what the
  call found.
-/
import proofs.«131359_g78700980732397_cont_9to1_m_426_5_alg».proof.Proof.Gen.KernelIdeal.Frame
import proofs.«131359_g78700980732397_cont_9to1_m_426_5_alg».proof.Proof.GcnSpec
import proofs.«131359_g78700980732397_cont_9to1_m_426_5_alg».proof.Proof.LibPlainDot
import Idealize.ShloMosaic.Lib.Pipeline.Value
import Idealize.ShloMosaic.Lib.ValueIdx
import proofs.«131359_g78700980732397_cont_9to1_m_426_5_alg».proof.Proof.GcnStack
import Idealize.ShloMosaic.Lib.ValueLayout
set_option maxRecDepth 16384

noncomputable section

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- A slab with its leading unit axis dropped, read at (r, k): the slab at (0, r, k). -/
theorem drop_apply (x0 : FVec Ideal S1x200x10000 .bf16) (r : Fin 200) (k : Fin 10000) :
    shapeCast S200x10000 x0 shapeCasts_S1x200x10000_S200x10000 (ix2 r k) = x0 (ix3 0 r k) :=
  (shapeCast_dropUnit_apply ![200, 10000] x0 shapeCasts_S1x200x10000_S200x10000 (ix2 r k)).trans
    (congrArg x0 (funext fun a => by
      match a with
      | ⟨0, _⟩ => rfl
      | ⟨1, _⟩ => rfl
      | ⟨2, _⟩ => rfl))

/-- The body's stored block: the slab (as a matrix) times the projection, plus the bias row on every row. -/
theorem pay_eq (x0 : Vec Ideal S1x200x10000 .bf16) (x1 : Vec Ideal S10000x128 .bf16) (x2 : Vec Ideal S1x128 .f32) :
    k2_pay1 x0 x1 x2
      = Gcn.aff (shapeCast S200x10000 (x0 : FVec Ideal S1x200x10000 .bf16) shapeCasts_S1x200x10000_S200x10000) x1 x2 := by
  funext j
  show addf (@matmul Ideal _ S200x10000 S10000x128 S200x128 .bf16 .bf16 dot_S200x10000_S10000x128_S200x128_1_0_0_1_n_n none
        (shapeCast S200x10000 (x0 : FVec Ideal S1x200x10000 .bf16) shapeCasts_S1x200x10000_S200x10000)
        (shapeCast S10000x128 (x1 : FVec Ideal S10000x128 .bf16) shapeCasts_S10000x128_S10000x128)
        (constant S200x128 .f32 0x00000000#32))
      (broadcastTo S200x128 (shapeCast S1x128 (x2 : FVec Ideal S1x128 .f32) shapeCasts_S1x128_S1x128) broadcasts_S1x128_S200x128) j = _
  rw [addf_apply, shapeCast_self, shapeCast_self]
  rw [Cert.Lib.PlainDot.eq_plain dot_S200x10000_S10000x128_S200x128_1_0_0_1_n_n rfl rfl rfl rfl rfl rfl]
  rw [Cert.Lib.PlainDot.matmul_zero_plain_apply (φ₁ := .bf16) (φ₂ := .bf16) none _ x1 j]
  rw [broadcastTo_apply x2 broadcasts_S1x128_S200x128 j (ix2 0 (j 1)) (fun a => by
    match a with
    | ⟨0, _⟩ => show (0 : Nat) = if (1 : Nat) = 1 then 0 else _; rw [if_pos rfl]
    | ⟨1, _⟩ => show (j 1).val = if (128 : Nat) = 1 then 0 else (j 1).val; rw [if_neg (by decide)])]
  rfl

/-- The index maps over the grid: the slab window and the output window move together, one slab and one block of
    200 rows per point; every other block index is 0. -/
theorem idx_facts : ∀ t : Fin cfg2.N, win2_0.index t (0 : Fin 3) = win2_3.index t (0 : Fin 2)
    ∧ win2_0.index t (1 : Fin 3) = 0 ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 49 :=
  (by decide +kernel : ∀ t : Fin grid2.N, _)

/-- Every block of rows is some point's. -/
theorem idx_onto : ∀ q : Fin 50, ∃ t : Fin cfg2.N, win2_3.index t = ![q.val, 0] :=
  (by decide +kernel : ∀ q : Fin 50, ∃ t : Fin grid2.N, win2_3.index t = ![q.val, 0])

/-- What point t writes back is block t of the whole function. -/
theorem flushed_eq (c : Dev nD) (t : Fin cfg2.N) :
    (dat2 V c).flushed 3 t = ((cfg2.win 3).blk t).view.read (Elt Ideal)
      (Gcn.aff (Gcn.unstack (V c main_v11_1)) (V c main_v11_0) (V c main_v8)) := by
  show (cfg2.win 3).cut (grid2.coords t) ((dat2 V c).after 3 t) = _
  rw [after2_3]
  unfold out2_3
  rw [View.canon_unit_zero hz2]
  simp only [View.ld_unit_zero (S := S1x200x10000) hz3, View.ld_unit_zero (S := S10000x128) hz2,
    View.ld_unit_zero (S := S1x128) hz2]
  rw [pay_eq]
  obtain ⟨e0, e1, e2, e3, e4, e5, e6, e7, e8⟩ := idx_facts t
  funext j
  show Gcn.aff (shapeCast S200x10000 (iblk2 V c 0 t : FVec Ideal S1x200x10000 .bf16) shapeCasts_S1x200x10000_S200x10000)
      (iblk2 V c 1 t) (iblk2 V c 2 t) j
    = Gcn.aff (Gcn.unstack (V c main_v11_1)) (V c main_v11_0) (V c main_v8) (((cfg2.win 3).blk t).view.emb j)
  have hj0 : (j 0).val < 200 := (j 0).isLt
  refine Gcn.aff_congr _ _ _ _ _ _ _ _ (fun k => ?_) (fun k => ?_) ?_
  · refine (drop_apply _ (j 0) k).trans ?_
    show V c main_v11_1 (((cfg2.win 0).blk t).view.emb (ix3 0 (j 0) k))
      = V c main_v11_1 (ix3 (⟨((((cfg2.win 3).blk t).view.emb j) 0).val / 200, _⟩ : Fin 50)
          (⟨((((cfg2.win 3).blk t).view.emb j) 0).val % 200, _⟩ : Fin 200) k)
    refine congrArg (V c main_v11_1) (funext fun a => Fin.ext ?_)
    match a with
    | ⟨0, _⟩ =>
      show win2_0.index t (0 : Fin 3) * 1 + 1 * 0 = (win2_3.index t (0 : Fin 2) * 200 + 1 * (j 0).val) / 200
      omega
    | ⟨1, _⟩ =>
      show win2_0.index t (1 : Fin 3) * 200 + 1 * (j 0).val = (win2_3.index t (0 : Fin 2) * 200 + 1 * (j 0).val) % 200
      omega
    | ⟨2, _⟩ =>
      show win2_0.index t (2 : Fin 3) * 10000 + 1 * k.val = k.val
      omega
  · show V c main_v11_0 (((cfg2.win 1).blk t).view.emb (ix2 k (j 1)))
      = V c main_v11_0 (ix2 k ((((cfg2.win 3).blk t).view.emb j) 1))
    refine congrArg (V c main_v11_0) (funext fun a => Fin.ext ?_)
    match a with
    | ⟨0, _⟩ => show win2_1.index t (0 : Fin 2) * 10000 + 1 * k.val = k.val; omega
    | ⟨1, _⟩ =>
      show win2_1.index t (1 : Fin 2) * 128 + 1 * (j 1).val = win2_3.index t (1 : Fin 2) * 128 + 1 * (j 1).val
      omega
  · show V c main_v8 (((cfg2.win 2).blk t).view.emb (ix2 0 (j 1)))
      = V c main_v8 (ix2 0 ((((cfg2.win 3).blk t).view.emb j) 1))
    refine congrArg (V c main_v8) (funext fun a => Fin.ext ?_)
    match a with
    | ⟨0, _⟩ => show win2_2.index t (0 : Fin 2) * 1 + 1 * 0 = 0; omega
    | ⟨1, _⟩ =>
      show win2_2.index t (1 : Fin 2) * 128 + 1 * (j 1).val = win2_3.index t (1 : Fin 2) * 128 + 1 * (j 1).val
      omega

theorem mem_blk (t : Fin cfg2.N) (i : S10000x128.Idx) :
    i ∈ ((cfg2.win 3).blk t).view.set ↔ ∀ a : Fin 2, win2_3.index t a * S200x128.size a ≤ (i a).val
      ∧ (i a).val < win2_3.index t a * S200x128.size a + S200x128.size a := by
  show i ∈ ((View.whole main_v12).slice (win2_3.rect t)).set ↔ _
  rw [View.set_slice_whole, Rect.mem_set_unit]
  exact Iff.rfl

/-- The fifty blocks cover the output: row r is in the block of point r / 200. -/
theorem cover (i : S10000x128.Idx) :
    ∃ t : Fin cfg2.N, (cfg2.win 3).flush t = true ∧ i ∈ ((cfg2.win 3).blk t).view.set := by
  have hi0 : (i 0).val < 10000 := (i 0).isLt
  have hi1 : (i 1).val < 128 := (i 1).isLt
  obtain ⟨t, ht⟩ := idx_onto ⟨(i 0).val / 200, by omega⟩
  have q0 : win2_3.index t (0 : Fin 2) = (i 0).val / 200 := congrFun ht 0
  have q1 : win2_3.index t (1 : Fin 2) = 0 := congrFun ht 1
  refine ⟨t, flush2_3 t, ?_⟩
  rw [mem_blk]
  intro a
  match a with
  | ⟨0, _⟩ =>
    show win2_3.index t (0 : Fin 2) * 200 ≤ (i 0).val ∧ (i 0).val < win2_3.index t (0 : Fin 2) * 200 + 200
    omega
  | ⟨1, _⟩ =>
    show win2_3.index t (1 : Fin 2) * 128 ≤ (i 1).val ∧ (i 1).val < win2_3.index t (1 : Fin 2) * 128 + 128
    omega

/-- After the call, the output is (the stack read back) · w + b2 of the operands the call found. -/
theorem arr (c : Dev nD) : (dat2 V c).arrAt 3 cfg2.N
    = Gcn.aff (Gcn.unstack (V c main_v11_1)) (V c main_v11_0) (V c main_v8) :=
  (dat2 V c).arrAt_eq_of_cover 3 _ (fun t _ => flushed_eq V c t) cover

end Cert.KernelIdeal.Layer2

end
-- ==== Proof.KernelChain.lean ====
/-
  The buffers at the boundaries of @main's segments, read back to the arguments.

  Before the first pallas_call the host operations build three operands: the first bias as a row [1, 256], the second
  weight matrix widened to 128 columns (`w2pad`) and the second bias as a row widened to 128 entries (`b2pad`); no
  argument is written. The first call then leaves u = x · w1; the second leaves the stack of the adjacency and the
  projection w = (max (a · u + b1, 0)) · w2pad; the third leaves (stack read back) · w + b2pad, and reading the stack
  back gives the adjacency. The last host operation keeps columns 0 … 6. Each boundary's contents differ from the
  previous boundary's only at the buffers the segment writes, so every operand a call finds is read off the fold.
-/
import proofs.«131359_g78700980732397_cont_9to1_m_426_5_alg».proof.Proof.Gen.KernelIdeal.Frame
import proofs.«131359_g78700980732397_cont_9to1_m_426_5_alg».proof.Proof.GcnSpec
import proofs.«131359_g78700980732397_cont_9to1_m_426_5_alg».proof.Proof.GcnStack
import proofs.«131359_g78700980732397_cont_9to1_m_426_5_alg».proof.Proof.Feat
import proofs.«131359_g78700980732397_cont_9to1_m_426_5_alg».proof.Proof.Layer1
import proofs.«131359_g78700980732397_cont_9to1_m_426_5_alg».proof.Proof.Layer2
import Idealize.ShloMosaic.Lib.StableHlo.Run
import Idealize.ShloMosaic.PureOps.Ideal

set_option maxRecDepth 16384

noncomputable section

namespace Cert.KernelIdeal.Net

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The second weight matrix written into columns 0 … 6 of a zero matrix of 128 columns. -/
def w2pad (w2 : FVec Ideal S256x7 .f32) : FVec Ideal S256x128 .bf16 :=
  Host.scatter scatter_S256x128_S1_S256x7_01_n_1_0 (fun _ b => b)
    (broadcastInDim S256x128 ![] bcast_S_S256x128 (constant (F := Ideal) S_ .bf16 0x0000#16))
    (broadcastInDim S1 ![] bcast_S_S1 (constantI S_ 32 0#32))
    (truncf .bf16 w2 bitsLt_bf16_f32)

/-- The second bias written into entries 0 … 6 of a zero row of 128 entries. -/
def b2pad (b2 : FVec Ideal S7 .f32) : FVec Ideal S1x128 .f32 :=
  Host.scatter scatter_S1x128_S2_S7_0_0_01_0 (fun _ b => b)
    (broadcastInDim S1x128 ![] bcast_S_S1x128 (constant (F := Ideal) S_ .f32 0x00000000#32))
    (concatenate S2 0 [⟨S1, broadcastInDim S1 ![] bcast_S_S1 (constantI S_ 32 0#32)⟩,
      ⟨S1, broadcastInDim S1 ![] bcast_S_S1 (constantI S_ 32 0#32)⟩] concatenates_S1_S1_S2_d0)
    b2

/-! ## Before the first call -/

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results <;> rfl

/-- The first bias as a row. -/
theorem W1_v9 (c : Dev nD) : W1 m ρ c (Proc.devRef .tc main_v9)
    = shapeCast S1x256 (m ((c : Thread nD τ).loc main_arg3)) shapeCasts_S256_S1x256 := by
  show StableHlo.after hostOps0 (W0 m ρ c) (Proc.devRef .tc main_v9) = _
  after_results <;> rfl

/-- The widened second weight matrix. -/
theorem W1_v3 (c : Dev nD) : W1 m ρ c (Proc.devRef .tc main_v3) = w2pad (m ((c : Thread nD τ).loc main_arg4)) := by
  show StableHlo.after hostOps0 (W0 m ρ c) (Proc.devRef .tc main_v3) = _
  after_results <;> rfl

/-- The widened second bias row. -/
theorem W1_v8 (c : Dev nD) : W1 m ρ c (Proc.devRef .tc main_v8) = b2pad (m ((c : Thread nD τ).loc main_arg5)) := by
  show StableHlo.after hostOps0 (W0 m ρ c) (Proc.devRef .tc main_v8) = _
  after_results <;> rfl

/-! ## After the first call -/

theorem V2_arg1 (c : Dev nD) : V2 m ρ c main_arg1 = m ((c : Thread nD τ).loc main_arg1) :=
  (W2_of_ne m ρ c main_arg1 (by decide)).trans (W1_arg1 m ρ c)
theorem V2_v9 (c : Dev nD) : V2 m ρ c main_v9
    = shapeCast S1x256 (m ((c : Thread nD τ).loc main_arg3)) shapeCasts_S256_S1x256 :=
  (W2_of_ne m ρ c main_v9 (by decide)).trans (W1_v9 m ρ c)
theorem V2_v3 (c : Dev nD) : V2 m ρ c main_v3 = w2pad (m ((c : Thread nD τ).loc main_arg4)) :=
  (W2_of_ne m ρ c main_v3 (by decide)).trans (W1_v3 m ρ c)

/-- The feature product. -/
theorem V2_v10 (c : Dev nD) : V2 m ρ c main_v10
    = Gcn.prod (m ((c : Thread nD τ).loc main_arg0)) (m ((c : Thread nD τ).loc main_arg2)) :=
  (W2_arr m ρ c 2).trans ((Feat.arr (V1 m ρ) c).trans
    (congrArg₂ (Gcn.prod (A := 10000) (K := 1433) (B := 256)) (W1_arg0 m ρ c) (W1_arg2 m ρ c)))

/-! ## After the second call -/

/-- The stack of the adjacency. -/
theorem V3_stack (c : Dev nD) : V3 m ρ c main_v11_1 = Gcn.stack (m ((c : Thread nD τ).loc main_arg1)) :=
  (W3_arr m ρ c 5).trans ((Layer1.arr_stack (V2 m ρ) c).trans (congrArg Gcn.stack (V2_arg1 m ρ c)))

/-- The projection. -/
theorem V3_proj (c : Dev nD) : V3 m ρ c main_v11_0
    = Gcn.prod (Gcn.rect (m ((c : Thread nD τ).loc main_arg1))
        (Gcn.prod (m ((c : Thread nD τ).loc main_arg0)) (m ((c : Thread nD τ).loc main_arg2)))
        (shapeCast S1x256 (m ((c : Thread nD τ).loc main_arg3)) shapeCasts_S256_S1x256))
      (w2pad (m ((c : Thread nD τ).loc main_arg4))) := by
  refine (W3_arr m ρ c 4).trans ((Layer1.arr_proj (V2 m ρ) c).trans ?_)
  rw [V2_arg1, V2_v10, V2_v9, V2_v3]

theorem V3_v8 (c : Dev nD) : V3 m ρ c main_v8 = b2pad (m ((c : Thread nD τ).loc main_arg5)) :=
  (W3_of_ne m ρ c main_v8 (by decide)).trans ((W2_of_ne m ρ c main_v8 (by decide)).trans (W1_v8 m ρ c))

/-! ## After the third call, and the slice -/

/-- The padded output: a · w + b2pad, the adjacency read back from its stack. -/
theorem W4_v12 (c : Dev nD) : W4 m ρ c (Proc.devRef .tc main_v12)
    = Gcn.aff (m ((c : Thread nD τ).loc main_arg1))
        (Gcn.prod (Gcn.rect (m ((c : Thread nD τ).loc main_arg1))
          (Gcn.prod (m ((c : Thread nD τ).loc main_arg0)) (m ((c : Thread nD τ).loc main_arg2)))
          (shapeCast S1x256 (m ((c : Thread nD τ).loc main_arg3)) shapeCasts_S256_S1x256))
        (w2pad (m ((c : Thread nD τ).loc main_arg4))))
        (b2pad (m ((c : Thread nD τ).loc main_arg5))) := by
  refine (W4_arr m ρ c 3).trans ((Layer2.arr (V3 m ρ) c).trans ?_)
  rw [V3_stack, V3_proj, V3_v8, Gcn.unstack_stack]

/-- The result: columns 0 … 6 of the padded output. -/
theorem W5_v13 (c : Dev nD) : W5 m ρ c (Proc.devRef .tc main_v13)
    = extractStridedSlice S10000x7 ![0, 0] (W4 m ρ c (Proc.devRef .tc main_v12)) slices_S10000x128_S10000x7_0_0 := by
  show StableHlo.after hostOps3 (W4 m ρ c) (Proc.devRef .tc main_v13) = _
  after_results <;> rfl

end Cert.KernelIdeal.Net

end
-- ==== Proof.LibSetScatter.lean ====
/-
  Writing a block into an array (a scatter whose body returns the update): what the result holds at an element
  that exactly one update lands on.

  * the scatter is a left fold over the update indices; when update j₀ lands on element i and no other update
    does, the fold leaves the value of update j₀ at i, whatever the operand held there; an element no update lands
    on keeps the operand's value (for any body);
  * a [K, 1] block written into a [K, B] array (0 < B) at the column offset given by ONE scatter index that is 0:
    update (k, 0) lands on element (k, 0) and nowhere else does any update land, so the result holds the block in
    column 0 and the operand in every other column.
-/
import Idealize.ShloMosaic.PureOps.ShapeOps
import Idealize.ShloMosaic.Lib.ValueIdx

namespace Cert.Lib.SetScatter

open Idealize.ShloMosaic Idealize.ShloMosaic.ValueIdx

section General
variable {α : Type} {s si u : Shape} {w : Nat}

/-- The fold of the overwriting step over ANY list of update numbers, read at an element i that update j₀ lands on
    and no other update does: the value of update j₀ if its number is in the list, the accumulator's otherwise. -/
theorem foldl_set_apply (d : ScatterDims s si u) (idx : IVec si w) (upd : u.Idx → α) (j₀ : u.Idx) (i : s.Idx)
    (h₀ : d.resultIdx? j₀ idx = some i) (huniq : ∀ j, d.resultIdx? j idx = some i → j = j₀)
    (l : List (Fin u.numel)) (r : s.Idx → α) :
    l.foldl (fun r n =>
      match d.resultIdx? (u.rowMajor.symm n) idx with
      | some i => fun i' => if i' = i then (fun _ b => b) (r i) (upd (u.rowMajor.symm n)) else r i'
      | none => r) r i = if u.rowMajor j₀ ∈ l then upd j₀ else r i := by
  induction l generalizing r with
  | nil => simp
  | cons n l ih =>
    rw [List.foldl_cons, ih]
    by_cases hm : u.rowMajor j₀ ∈ l
    · rw [if_pos hm, if_pos (List.mem_cons_of_mem _ hm)]
    · rw [if_neg hm]
      by_cases hn : u.rowMajor j₀ = n
      · subst hn
        rw [if_pos List.mem_cons_self]
        simp only [Equiv.symm_apply_apply, h₀, if_true]
      · rw [if_neg (by simp [hn, hm])]
        generalize hres : d.resultIdx? (u.rowMajor.symm n) idx = o
        cases o with
        | none => rfl
        | some i' =>
          have hne : i ≠ i' := by
            intro hii
            subst hii
            have := huniq _ hres
            exact hn (by rw [← this, Equiv.apply_symm_apply])
          show (if i = i' then _ else r i) = r i
          rw [if_neg hne]

/-- A scatter whose body returns the update, read at an element that update j₀ lands on and no other update does:
    the value of update j₀. -/
theorem scatter_set_apply_of_unique (d : ScatterDims s si u) (x : s.Idx → α) (idx : IVec si w) (upd : u.Idx → α)
    (j₀ : u.Idx) (i : s.Idx)
    (h₀ : d.resultIdx? j₀ idx = some i) (huniq : ∀ j, d.resultIdx? j idx = some i → j = j₀) :
    Host.scatter d (fun _ b => b) x idx upd i = upd j₀ := by
  unfold Host.scatter
  exact (foldl_set_apply d idx upd j₀ i h₀ huniq _ x).trans (if_pos (List.mem_finRange _))

/-- The fold of the scatter's step over ANY list of update numbers, read at an element NO update lands on: the
    accumulator's value there, whatever the body is. -/
theorem foldl_apply_of_not_hit (d : ScatterDims s si u) (f : α → α → α) (idx : IVec si w) (upd : u.Idx → α) (i : s.Idx)
    (hnone : ∀ j, d.resultIdx? j idx ≠ some i)
    (l : List (Fin u.numel)) (r : s.Idx → α) :
    l.foldl (fun r n =>
      match d.resultIdx? (u.rowMajor.symm n) idx with
      | some i => fun i' => if i' = i then f (r i) (upd (u.rowMajor.symm n)) else r i'
      | none => r) r i = r i := by
  induction l generalizing r with
  | nil => rfl
  | cons n l ih =>
    rw [List.foldl_cons, ih]
    generalize hres : d.resultIdx? (u.rowMajor.symm n) idx = o
    cases o with
    | none => rfl
    | some i' =>
      have hne : i ≠ i' := fun hii => hnone _ (hii ▸ hres)
      show (if i = i' then _ else r i) = r i
      rw [if_neg hne]

/-- A scatter, read at an element no update lands on: the operand's element. -/
theorem scatter_apply_of_not_hit (d : ScatterDims s si u) (f : α → α → α) (x : s.Idx → α) (idx : IVec si w)
    (upd : u.Idx → α) (i : s.Idx) (hnone : ∀ j, d.resultIdx? j idx ≠ some i) :
    Host.scatter d f x idx upd i = x i := by
  unfold Host.scatter
  exact foldl_apply_of_not_hit d f idx upd i hnone _ x

end General

/-! ## A one-column block written at column offset 0 -/

section Column
variable {α : Type} {K B : Nat}

/-- A [K, 1] block written into a [K, B] array: both axes of the block are window axes, no operand axis is
    inserted, and the one scatter index is the start on the column axis. -/
abbrev colDims (K B : Nat)
    (wf : ScatterDims.WF ⟨2, ![K, B]⟩ ⟨1, ![1]⟩ ⟨2, ![K, 1]⟩ [0, 1] [] [1] 0) :
    ScatterDims ⟨2, ![K, B]⟩ ⟨1, ![1]⟩ ⟨2, ![K, 1]⟩ where
  updateWindowDims := [0, 1]
  insertedWindowDims := []
  scatterDimsToOperandDims := [1]
  indexVectorDim := 0
  wf := wf

variable (wf : ScatterDims.WF ⟨2, ![K, B]⟩ ⟨1, ![1]⟩ ⟨2, ![K, 1]⟩ [0, 1] [] [1] 0)

/-- The row axis is not scattered: every window starts at row 0. -/
theorem col_start0 (idx : IVec ⟨1, ![1]⟩ 32) (j : (⟨2, ![K, 1]⟩ : Shape).Idx) :
    (colDims K B wf).start j idx 0 = 0 := by
  unfold ScatterDims.start
  rw [dif_neg (show (0 : Fin 2) ∉ (colDims K B wf).scatterDimsToOperandDims from
    (by decide : (0 : Fin 2) ∉ ([1] : List (Fin 2))))]

/-- The column start is the one scatter index, read signed: 0 when that index is 0. -/
theorem col_start1 (idx : IVec ⟨1, ![1]⟩ 32) (q : (⟨1, ![1]⟩ : Shape).Idx) (hidx : idx q = 0#32)
    (j : (⟨2, ![K, 1]⟩ : Shape).Idx) :
    (colDims K B wf).start j idx 1 = 0 := by
  unfold ScatterDims.start
  rw [dif_pos (show (1 : Fin 2) ∈ (colDims K B wf).scatterDimsToOperandDims from List.mem_singleton.mpr rfl)]
  have hsi : (colDims K B wf).siIdx j ⟨List.idxOf (1 : Fin 2) (colDims K B wf).scatterDimsToOperandDims,
      List.idxOf_lt_length_iff.2 (List.mem_singleton.mpr rfl)⟩ = q := by
    funext b; refine Fin.ext ?_
    match b with
    | ⟨0, _⟩ =>
      have h1 : (q ⟨0, Nat.one_pos⟩).val < 1 := (q ⟨0, Nat.one_pos⟩).isLt
      have h2 : ((colDims K B wf).siIdx j ⟨List.idxOf (1 : Fin 2) (colDims K B wf).scatterDimsToOperandDims,
        List.idxOf_lt_length_iff.2 (List.mem_singleton.mpr rfl)⟩ ⟨0, Nat.one_pos⟩).val < 1 := Fin.isLt _
      omega
  rw [hsi, hidx]
  rfl

/-- The window coordinate on the row axis is the update's row. -/
theorem col_window0 (j : (⟨2, ![K, 1]⟩ : Shape).Idx) : (colDims K B wf).window j 0 = (j 0).val := by
  unfold ScatterDims.window
  rw [dif_pos (show (0 : Fin 2) ∈ (colDims K B wf).sKept from
    (by decide : (0 : Fin 2) ∈ (List.finRange 2).filter (· ∉ ([] : List (Fin 2)))))]
  rfl

/-- The window coordinate on the column axis is the update's column, which is 0. -/
theorem col_window1 (j : (⟨2, ![K, 1]⟩ : Shape).Idx) : (colDims K B wf).window j 1 = 0 := by
  unfold ScatterDims.window
  rw [dif_pos (show (1 : Fin 2) ∈ (colDims K B wf).sKept from
    (by decide : (1 : Fin 2) ∈ (List.finRange 2).filter (· ∉ ([] : List (Fin 2)))))]
  have h1 : (j 1).val < 1 := (j 1).isLt
  show (j 1).val = 0
  omega

/-- Every update of the block lands, at its own row and column 0. -/
theorem col_resultIdx (hB : 0 < B) (idx : IVec ⟨1, ![1]⟩ 32) (q : (⟨1, ![1]⟩ : Shape).Idx) (hidx : idx q = 0#32)
    (j : (⟨2, ![K, 1]⟩ : Shape).Idx) :
    (colDims K B wf).resultIdx? j idx = some (ix2 (j 0) (⟨0, hB⟩ : Fin B)) := by
  have hj0 : (j 0).val < K := (j 0).isLt
  have e0 : (colDims K B wf).start j idx 0 + ((colDims K B wf).window j 0 : Int) = ((j 0).val : Int) := by
    rw [col_start0, col_window0, zero_add]
  have e1 : (colDims K B wf).start j idx 1 + ((colDims K B wf).window j 1 : Int) = 0 := by
    rw [col_start1 wf idx q hidx, col_window1]; rfl
  unfold ScatterDims.resultIdx?
  have hin : ∀ a, 0 ≤ (colDims K B wf).start j idx a + ((colDims K B wf).window j a : Int) ∧
      (colDims K B wf).start j idx a + ((colDims K B wf).window j a : Int) < ((⟨2, ![K, B]⟩ : Shape).size a : Int) := by
    intro a
    match a with
    | ⟨0, _⟩ =>
      show 0 ≤ (colDims K B wf).start j idx 0 + ((colDims K B wf).window j 0 : Int) ∧
        (colDims K B wf).start j idx 0 + ((colDims K B wf).window j 0 : Int) < (K : Int)
      rw [e0]; omega
    | ⟨1, _⟩ =>
      show 0 ≤ (colDims K B wf).start j idx 1 + ((colDims K B wf).window j 1 : Int) ∧
        (colDims K B wf).start j idx 1 + ((colDims K B wf).window j 1 : Int) < (B : Int)
      rw [e1]; omega
  rw [dif_pos hin]
  congr 1
  funext a
  refine Fin.ext ?_
  match a with
  | ⟨0, _⟩ =>
    show ((colDims K B wf).start j idx 0 + ((colDims K B wf).window j 0 : Int)).toNat = (j 0).val
    rw [e0]; exact Int.toNat_natCast _
  | ⟨1, _⟩ =>
    show ((colDims K B wf).start j idx 1 + ((colDims K B wf).window j 1 : Int)).toNat = 0
    rw [e1]; rfl

/-- Update (k, 0) lands on element (k, 0). -/
theorem col_lands (hB : 0 < B) (idx : IVec ⟨1, ![1]⟩ 32) (q : (⟨1, ![1]⟩ : Shape).Idx) (hidx : idx q = 0#32)
    (k : Fin K) :
    (colDims K B wf).resultIdx? (ix2 k (0 : Fin 1)) idx = some (ix2 k (⟨0, hB⟩ : Fin B)) :=
  col_resultIdx wf hB idx q hidx (ix2 k (0 : Fin 1))

/-- The written array at column 0 holds the block: element (k, 0) is update (k, 0). -/
theorem scatter_set_col_apply (hB : 0 < B) (x : (⟨2, ![K, B]⟩ : Shape).Idx → α) (idx : IVec ⟨1, ![1]⟩ 32)
    (q : (⟨1, ![1]⟩ : Shape).Idx) (hidx : idx q = 0#32) (upd : (⟨2, ![K, 1]⟩ : Shape).Idx → α) (k : Fin K) :
    Host.scatter (colDims K B wf) (fun _ b => b) x idx upd (ix2 k (⟨0, hB⟩ : Fin B)) = upd (ix2 k (0 : Fin 1)) := by
  refine scatter_set_apply_of_unique _ x idx upd (ix2 k (0 : Fin 1)) _ (col_lands wf hB idx q hidx k) ?_
  intro j hj
  rw [col_resultIdx wf hB idx q hidx j] at hj
  have h0 : j 0 = k := congrArg (fun g => g 0) (Option.some.inj hj)
  rw [eq_ix2 j, h0]
  congr 1
  exact Subsingleton.elim (α := Fin 1) _ _

/-- The written array away from column 0 holds the operand: no update lands there. -/
theorem scatter_col_apply_of_ne (hB : 0 < B) (f : α → α → α) (x : (⟨2, ![K, B]⟩ : Shape).Idx → α)
    (idx : IVec ⟨1, ![1]⟩ 32) (q : (⟨1, ![1]⟩ : Shape).Idx) (hidx : idx q = 0#32)
    (upd : (⟨2, ![K, 1]⟩ : Shape).Idx → α) (k : Fin K) (c : Fin B) (hc : c.val ≠ 0) :
    Host.scatter (colDims K B wf) f x idx upd (ix2 k c) = x (ix2 k c) := by
  refine scatter_apply_of_not_hit _ f x idx upd _ ?_
  intro j hj
  rw [col_resultIdx wf hB idx q hidx j] at hj
  have h1 : (⟨0, hB⟩ : Fin B) = c := congrArg (fun g => g 1) (Option.some.inj hj)
  exact hc (by rw [← h1])

/-! ### The same for any record with these four lists -/

/-- A record of these shapes whose four lists are the ones above IS the record above. -/
theorem eq_colDims (d : ScatterDims ⟨2, ![K, B]⟩ ⟨1, ![1]⟩ ⟨2, ![K, 1]⟩)
    (huw : d.updateWindowDims = [0, 1]) (hiw : d.insertedWindowDims = [])
    (hsd : d.scatterDimsToOperandDims = [1]) (hiv : d.indexVectorDim = 0) :
    ∃ wf, d = colDims K B wf := by
  obtain ⟨uw, iw, sd, iv, wf⟩ := d
  simp only at huw hiw hsd hiv
  subst huw hiw hsd hiv
  exact ⟨wf, rfl⟩

/-- Update (k, 0) lands on element (k, 0). -/
theorem col_lands_of_fields (d : ScatterDims ⟨2, ![K, B]⟩ ⟨1, ![1]⟩ ⟨2, ![K, 1]⟩)
    (huw : d.updateWindowDims = [0, 1]) (hiw : d.insertedWindowDims = [])
    (hsd : d.scatterDimsToOperandDims = [1]) (hiv : d.indexVectorDim = 0)
    (hB : 0 < B) (idx : IVec ⟨1, ![1]⟩ 32) (q : (⟨1, ![1]⟩ : Shape).Idx) (hidx : idx q = 0#32) (k : Fin K) :
    d.resultIdx? (ix2 k (0 : Fin 1)) idx = some (ix2 k (⟨0, hB⟩ : Fin B)) := by
  obtain ⟨wf, rfl⟩ := eq_colDims d huw hiw hsd hiv
  exact col_lands wf hB idx q hidx k

/-- The written array at column 0 holds the block: element (k, 0) is update (k, 0). -/
theorem scatter_set_col_apply_of_fields (d : ScatterDims ⟨2, ![K, B]⟩ ⟨1, ![1]⟩ ⟨2, ![K, 1]⟩)
    (huw : d.updateWindowDims = [0, 1]) (hiw : d.insertedWindowDims = [])
    (hsd : d.scatterDimsToOperandDims = [1]) (hiv : d.indexVectorDim = 0)
    (hB : 0 < B) (x : (⟨2, ![K, B]⟩ : Shape).Idx → α) (idx : IVec ⟨1, ![1]⟩ 32)
    (q : (⟨1, ![1]⟩ : Shape).Idx) (hidx : idx q = 0#32) (upd : (⟨2, ![K, 1]⟩ : Shape).Idx → α) (k : Fin K) :
    Host.scatter d (fun _ b => b) x idx upd (ix2 k (⟨0, hB⟩ : Fin B)) = upd (ix2 k (0 : Fin 1)) := by
  obtain ⟨wf, rfl⟩ := eq_colDims d huw hiw hsd hiv
  exact scatter_set_col_apply wf hB x idx q hidx upd k

/-- The written array away from column 0 holds the operand. -/
theorem scatter_col_apply_of_ne_of_fields (d : ScatterDims ⟨2, ![K, B]⟩ ⟨1, ![1]⟩ ⟨2, ![K, 1]⟩)
    (huw : d.updateWindowDims = [0, 1]) (hiw : d.insertedWindowDims = [])
    (hsd : d.scatterDimsToOperandDims = [1]) (hiv : d.indexVectorDim = 0)
    (hB : 0 < B) (f : α → α → α) (x : (⟨2, ![K, B]⟩ : Shape).Idx → α)
    (idx : IVec ⟨1, ![1]⟩ 32) (q : (⟨1, ![1]⟩ : Shape).Idx) (hidx : idx q = 0#32)
    (upd : (⟨2, ![K, 1]⟩ : Shape).Idx → α) (k : Fin K) (c : Fin B) (hc : c.val ≠ 0) :
    Host.scatter d f x idx upd (ix2 k c) = x (ix2 k c) := by
  obtain ⟨wf, rfl⟩ := eq_colDims d huw hiw hsd hiv
  exact scatter_col_apply_of_ne wf hB f x idx q hidx upd k c hc

end Column

end Cert.Lib.SetScatter
-- ==== Proof.LibPadScatter.lean ====
/-
  Padding by writing a block at offset 0: a set-scatter (one whose body returns the update) of a narrow block
  into a wider array whose scatter indices are all 0, read inside the block.

  * a [K, C] block written into a [K, B] array (C ≤ B) at the column offset given by ONE scatter index that is 0:
    both axes of the block are window axes, the row axis is not scattered (start 0), the column start is the
    scatter index, read signed, which is 0; so update (k, c) lands on element (k, c) and no other update does,
    and the result holds the block in its first C columns;
  * a [C] vector written into a [1, B] array (C ≤ B), the scatter indices the vector [0, 0]: the row axis is an
    inserted axis (window coordinate 0) and both axes are scattered with start 0; so update c lands on element
    (0, c) and no other update does, and the result's one row holds the vector in its first C columns.
-/
import proofs.«131359_g78700980732397_cont_9to1_m_426_5_alg».proof.Proof.LibSetScatter

namespace Cert.Lib.PadScatter

open Idealize.ShloMosaic Idealize.ShloMosaic.ValueIdx
open Cert.Lib.SetScatter

/-- The signed reading of the 32-bit word 0 is 0. -/
theorem toInt_zero32 : (0#32 : BitVec 32).toInt = 0 := by decide

/-! ## A [K, C] block written at column offset 0 -/

section Block
variable {α : Type} {K C B : Nat}

/-- A [K, C] block written into a [K, B] array: both axes of the block are window axes, no operand axis is
    inserted, and the one scatter index is the start on the column axis. -/
abbrev blockDims (K C B : Nat)
    (wf : ScatterDims.WF ⟨2, ![K, B]⟩ ⟨1, ![1]⟩ ⟨2, ![K, C]⟩ [0, 1] [] [1] 0) :
    ScatterDims ⟨2, ![K, B]⟩ ⟨1, ![1]⟩ ⟨2, ![K, C]⟩ where
  updateWindowDims := [0, 1]
  insertedWindowDims := []
  scatterDimsToOperandDims := [1]
  indexVectorDim := 0
  wf := wf

variable (wf : ScatterDims.WF ⟨2, ![K, B]⟩ ⟨1, ![1]⟩ ⟨2, ![K, C]⟩ [0, 1] [] [1] 0)

/-- The row axis is not scattered: every window starts at row 0. -/
theorem block_start0 (idx : IVec ⟨1, ![1]⟩ 32) (j : (⟨2, ![K, C]⟩ : Shape).Idx) :
    (blockDims K C B wf).start j idx 0 = 0 := by
  unfold ScatterDims.start
  rw [dif_neg (show (0 : Fin 2) ∉ (blockDims K C B wf).scatterDimsToOperandDims from
    (by decide : (0 : Fin 2) ∉ ([1] : List (Fin 2))))]

/-- The column start is a scatter index, read signed: 0 when every scatter index is 0. -/
theorem block_start1 (idx : IVec ⟨1, ![1]⟩ 32) (hidx : ∀ q, idx q = 0#32) (j : (⟨2, ![K, C]⟩ : Shape).Idx) :
    (blockDims K C B wf).start j idx 1 = 0 := by
  unfold ScatterDims.start
  rw [dif_pos (show (1 : Fin 2) ∈ (blockDims K C B wf).scatterDimsToOperandDims from List.mem_singleton.mpr rfl)]
  rw [hidx]
  exact toInt_zero32

/-- The window coordinate on the row axis is the update's row. -/
theorem block_window0 (j : (⟨2, ![K, C]⟩ : Shape).Idx) : (blockDims K C B wf).window j 0 = (j 0).val := by
  unfold ScatterDims.window
  rw [dif_pos (show (0 : Fin 2) ∈ (blockDims K C B wf).sKept from
    (by decide : (0 : Fin 2) ∈ (List.finRange 2).filter (· ∉ ([] : List (Fin 2)))))]
  rfl

/-- The window coordinate on the column axis is the update's column. -/
theorem block_window1 (j : (⟨2, ![K, C]⟩ : Shape).Idx) : (blockDims K C B wf).window j 1 = (j 1).val := by
  unfold ScatterDims.window
  rw [dif_pos (show (1 : Fin 2) ∈ (blockDims K C B wf).sKept from
    (by decide : (1 : Fin 2) ∈ (List.finRange 2).filter (· ∉ ([] : List (Fin 2)))))]
  rfl

/-- Every update of the block lands, at its own row and column. -/
theorem block_resultIdx (hCB : C ≤ B) (idx : IVec ⟨1, ![1]⟩ 32) (hidx : ∀ q, idx q = 0#32)
    (j : (⟨2, ![K, C]⟩ : Shape).Idx) :
    (blockDims K C B wf).resultIdx? j idx
      = some (ix2 (j 0) (⟨(j 1).val, Nat.lt_of_lt_of_le (idx2_lt1 j) hCB⟩ : Fin B)) := by
  have hj0 : (j 0).val < K := idx2_lt0 j
  have hj1 : (j 1).val < C := idx2_lt1 j
  have e0 : (blockDims K C B wf).start j idx 0 + ((blockDims K C B wf).window j 0 : Int) = ((j 0).val : Int) := by
    rw [block_start0, block_window0, zero_add]
  have e1 : (blockDims K C B wf).start j idx 1 + ((blockDims K C B wf).window j 1 : Int) = ((j 1).val : Int) := by
    rw [block_start1 wf idx hidx, block_window1, zero_add]
  unfold ScatterDims.resultIdx?
  have hin : ∀ a, 0 ≤ (blockDims K C B wf).start j idx a + ((blockDims K C B wf).window j a : Int) ∧
      (blockDims K C B wf).start j idx a + ((blockDims K C B wf).window j a : Int)
        < ((⟨2, ![K, B]⟩ : Shape).size a : Int) := by
    intro a
    match a with
    | ⟨0, _⟩ =>
      show 0 ≤ (blockDims K C B wf).start j idx 0 + ((blockDims K C B wf).window j 0 : Int) ∧
        (blockDims K C B wf).start j idx 0 + ((blockDims K C B wf).window j 0 : Int) < (K : Int)
      rw [e0]; omega
    | ⟨1, _⟩ =>
      show 0 ≤ (blockDims K C B wf).start j idx 1 + ((blockDims K C B wf).window j 1 : Int) ∧
        (blockDims K C B wf).start j idx 1 + ((blockDims K C B wf).window j 1 : Int) < (B : Int)
      rw [e1]; omega
  rw [dif_pos hin]
  congr 1
  funext a
  refine Fin.ext ?_
  match a with
  | ⟨0, _⟩ =>
    show ((blockDims K C B wf).start j idx 0 + ((blockDims K C B wf).window j 0 : Int)).toNat = (j 0).val
    rw [e0]; exact Int.toNat_natCast _
  | ⟨1, _⟩ =>
    show ((blockDims K C B wf).start j idx 1 + ((blockDims K C B wf).window j 1 : Int)).toNat = (j 1).val
    rw [e1]; exact Int.toNat_natCast _

/-- The written array inside the block's columns holds the block: element (k, c) is update (k, c). -/
theorem scatter_set_block_apply (hCB : C ≤ B) (x : (⟨2, ![K, B]⟩ : Shape).Idx → α) (idx : IVec ⟨1, ![1]⟩ 32)
    (hidx : ∀ q, idx q = 0#32) (upd : (⟨2, ![K, C]⟩ : Shape).Idx → α) (k : Fin K) (c : Fin C) (c' : Fin B)
    (hc : c'.val = c.val) :
    Host.scatter (blockDims K C B wf) (fun _ b => b) x idx upd (ix2 k c') = upd (ix2 k c) := by
  refine scatter_set_apply_of_unique _ x idx upd (ix2 k c) _ ?_ ?_
  · rw [block_resultIdx wf hCB idx hidx (ix2 k c)]
    congr 2
    exact Fin.ext hc.symm
  · intro j hj
    rw [block_resultIdx wf hCB idx hidx j] at hj
    have h0 : j 0 = k := congrArg (fun g => g 0) (Option.some.inj hj)
    have h1 : (⟨(j 1).val, Nat.lt_of_lt_of_le (idx2_lt1 j) hCB⟩ : Fin B) = c' :=
      congrArg (fun g => g 1) (Option.some.inj hj)
    have h1' : (j 1).val = c.val := by rw [← hc, ← h1]
    rw [eq_ix2 j, h0]
    congr 1
    exact Fin.ext h1'

/-! ### The same for any record with these four lists -/

/-- A record of these shapes whose four lists are the ones above IS the record above. -/
theorem eq_blockDims (d : ScatterDims ⟨2, ![K, B]⟩ ⟨1, ![1]⟩ ⟨2, ![K, C]⟩)
    (huw : d.updateWindowDims = [0, 1]) (hiw : d.insertedWindowDims = [])
    (hsd : d.scatterDimsToOperandDims = [1]) (hiv : d.indexVectorDim = 0) :
    ∃ wf, d = blockDims K C B wf := by
  obtain ⟨uw, iw, sd, iv, wf⟩ := d
  simp only at huw hiw hsd hiv
  subst huw hiw hsd hiv
  exact ⟨wf, rfl⟩

/-- A [K, C] block written by a set-scatter into a [K, B] array (C ≤ B) at the column offset given by scatter
    indices that are all 0, for any record with these four lists: the result at (k, c') with c' = c as numbers,
    c a column of the block, is update (k, c). -/
theorem scatter_set_block_apply_of_fields (d : ScatterDims ⟨2, ![K, B]⟩ ⟨1, ![1]⟩ ⟨2, ![K, C]⟩)
    (huw : d.updateWindowDims = [0, 1]) (hiw : d.insertedWindowDims = [])
    (hsd : d.scatterDimsToOperandDims = [1]) (hiv : d.indexVectorDim = 0)
    (hCB : C ≤ B) (x : (⟨2, ![K, B]⟩ : Shape).Idx → α) (idx : IVec ⟨1, ![1]⟩ 32)
    (hidx : ∀ q, idx q = 0#32) (upd : (⟨2, ![K, C]⟩ : Shape).Idx → α) (k : Fin K) (c : Fin C) (c' : Fin B)
    (hc : c'.val = c.val) :
    Host.scatter d (fun _ b => b) x idx upd (ix2 k c') = upd (ix2 k c) := by
  obtain ⟨wf, rfl⟩ := eq_blockDims d huw hiw hsd hiv
  exact scatter_set_block_apply wf hCB x idx hidx upd k c c' hc

end Block

/-! ## A [C] vector written into the one row of a [1, B] array at offset (0, 0) -/

section Row
variable {α : Type} {C B : Nat}

/-- A [C] vector written into a [1, B] array: the vector's axis is a window axis going to the column axis, the row
    axis is inserted, and the two scatter indices are the starts on the row and the column axis. -/
abbrev rowDims (C B : Nat)
    (wf : ScatterDims.WF ⟨2, ![1, B]⟩ ⟨1, ![2]⟩ ⟨1, ![C]⟩ [0] [0] [0, 1] 0) :
    ScatterDims ⟨2, ![1, B]⟩ ⟨1, ![2]⟩ ⟨1, ![C]⟩ where
  updateWindowDims := [0]
  insertedWindowDims := [0]
  scatterDimsToOperandDims := [0, 1]
  indexVectorDim := 0
  wf := wf

variable (wf : ScatterDims.WF ⟨2, ![1, B]⟩ ⟨1, ![2]⟩ ⟨1, ![C]⟩ [0] [0] [0, 1] 0)

/-- Every start is a scatter index, read signed: 0 when every scatter index is 0. -/
theorem row_start (idx : IVec ⟨1, ![2]⟩ 32) (hidx : ∀ q, idx q = 0#32) (j : (⟨1, ![C]⟩ : Shape).Idx)
    (a : Fin 2) : (rowDims C B wf).start j idx a = 0 := by
  unfold ScatterDims.start
  split
  · rw [hidx]; exact toInt_zero32
  · rfl

/-- The row axis is inserted: its window coordinate is 0. -/
theorem row_window0 (j : (⟨1, ![C]⟩ : Shape).Idx) : (rowDims C B wf).window j 0 = 0 := by
  unfold ScatterDims.window
  rw [dif_neg (show (0 : Fin 2) ∉ (rowDims C B wf).sKept from
    (by decide : (0 : Fin 2) ∉ (List.finRange 2).filter (· ∉ ([0] : List (Fin 2)))))]

/-- The window coordinate on the column axis is the update's position in the vector. -/
theorem row_window1 (j : (⟨1, ![C]⟩ : Shape).Idx) : (rowDims C B wf).window j 1 = (j 0).val := by
  unfold ScatterDims.window
  rw [dif_pos (show (1 : Fin 2) ∈ (rowDims C B wf).sKept from
    (by decide : (1 : Fin 2) ∈ (List.finRange 2).filter (· ∉ ([0] : List (Fin 2)))))]
  rfl

/-- Every update of the vector lands, in row 0 at its own position. -/
theorem row_resultIdx (hCB : C ≤ B) (idx : IVec ⟨1, ![2]⟩ 32) (hidx : ∀ q, idx q = 0#32)
    (j : (⟨1, ![C]⟩ : Shape).Idx) :
    (rowDims C B wf).resultIdx? j idx
      = some (ix2 (⟨0, Nat.one_pos⟩ : Fin 1) (⟨(j 0).val, Nat.lt_of_lt_of_le (j 0).isLt hCB⟩ : Fin B)) := by
  have hj0 : (j 0).val < C := (j 0).isLt
  have e0 : (rowDims C B wf).start j idx 0 + ((rowDims C B wf).window j 0 : Int) = 0 := by
    rw [row_start wf idx hidx, row_window0]; rfl
  have e1 : (rowDims C B wf).start j idx 1 + ((rowDims C B wf).window j 1 : Int) = ((j 0).val : Int) := by
    rw [row_start wf idx hidx, row_window1, zero_add]
  unfold ScatterDims.resultIdx?
  have hin : ∀ a, 0 ≤ (rowDims C B wf).start j idx a + ((rowDims C B wf).window j a : Int) ∧
      (rowDims C B wf).start j idx a + ((rowDims C B wf).window j a : Int)
        < ((⟨2, ![1, B]⟩ : Shape).size a : Int) := by
    intro a
    match a with
    | ⟨0, _⟩ =>
      show 0 ≤ (rowDims C B wf).start j idx 0 + ((rowDims C B wf).window j 0 : Int) ∧
        (rowDims C B wf).start j idx 0 + ((rowDims C B wf).window j 0 : Int) < ((1 : Nat) : Int)
      rw [e0]; omega
    | ⟨1, _⟩ =>
      show 0 ≤ (rowDims C B wf).start j idx 1 + ((rowDims C B wf).window j 1 : Int) ∧
        (rowDims C B wf).start j idx 1 + ((rowDims C B wf).window j 1 : Int) < (B : Int)
      rw [e1]; omega
  rw [dif_pos hin]
  congr 1
  funext a
  refine Fin.ext ?_
  match a with
  | ⟨0, _⟩ =>
    show ((rowDims C B wf).start j idx 0 + ((rowDims C B wf).window j 0 : Int)).toNat = 0
    rw [e0]; rfl
  | ⟨1, _⟩ =>
    show ((rowDims C B wf).start j idx 1 + ((rowDims C B wf).window j 1 : Int)).toNat = (j 0).val
    rw [e1]; exact Int.toNat_natCast _

/-- The written array's one row holds the vector in its first columns: element (r, c) is update c. -/
theorem scatter_set_row_apply (hCB : C ≤ B) (x : (⟨2, ![1, B]⟩ : Shape).Idx → α) (idx : IVec ⟨1, ![2]⟩ 32)
    (hidx : ∀ q, idx q = 0#32) (upd : (⟨1, ![C]⟩ : Shape).Idx → α) (r : Fin 1) (c : Fin C) (c' : Fin B)
    (hc : c'.val = c.val) :
    Host.scatter (rowDims C B wf) (fun _ b => b) x idx upd (ix2 r c') = upd (ix1 c) := by
  refine scatter_set_apply_of_unique _ x idx upd (ix1 c) _ ?_ ?_
  · rw [row_resultIdx wf hCB idx hidx (ix1 c)]
    congr 2
    · exact Subsingleton.elim (α := Fin 1) _ _
    · exact Fin.ext hc.symm
  · intro j hj
    rw [row_resultIdx wf hCB idx hidx j] at hj
    have h1 : (⟨(j 0).val, Nat.lt_of_lt_of_le (j 0).isLt hCB⟩ : Fin B) = c' :=
      congrArg (fun g => g 1) (Option.some.inj hj)
    have h1' : (j 0).val = c.val := by rw [← hc, ← h1]
    rw [eq_ix1 j]
    congr 1
    exact Fin.ext h1'

/-! ### The same for any record with these four lists -/

/-- A record of these shapes whose four lists are the ones above IS the record above. -/
theorem eq_rowDims (d : ScatterDims ⟨2, ![1, B]⟩ ⟨1, ![2]⟩ ⟨1, ![C]⟩)
    (huw : d.updateWindowDims = [0]) (hiw : d.insertedWindowDims = [0])
    (hsd : d.scatterDimsToOperandDims = [0, 1]) (hiv : d.indexVectorDim = 0) :
    ∃ wf, d = rowDims C B wf := by
  obtain ⟨uw, iw, sd, iv, wf⟩ := d
  simp only at huw hiw hsd hiv
  subst huw hiw hsd hiv
  exact ⟨wf, rfl⟩

/-- A [C] vector written by a set-scatter into a [1, B] array (C ≤ B), the two scatter indices both 0, for any
    record with these four lists: the result at (r, c') with c' = c as numbers, c a position of the vector, is
    update c. -/
theorem scatter_set_row_apply_of_fields (d : ScatterDims ⟨2, ![1, B]⟩ ⟨1, ![2]⟩ ⟨1, ![C]⟩)
    (huw : d.updateWindowDims = [0]) (hiw : d.insertedWindowDims = [0])
    (hsd : d.scatterDimsToOperandDims = [0, 1]) (hiv : d.indexVectorDim = 0)
    (hCB : C ≤ B) (x : (⟨2, ![1, B]⟩ : Shape).Idx → α) (idx : IVec ⟨1, ![2]⟩ 32)
    (hidx : ∀ q, idx q = 0#32) (upd : (⟨1, ![C]⟩ : Shape).Idx → α) (r : Fin 1) (c : Fin C) (c' : Fin B)
    (hc : c'.val = c.val) :
    Host.scatter d (fun _ b => b) x idx upd (ix2 r c') = upd (ix1 c) := by
  obtain ⟨wf, rfl⟩ := eq_rowDims d huw hiw hsd hiv
  exact scatter_set_row_apply wf hCB x idx hidx upd r c c' hc

end Row

end Cert.Lib.PadScatter
-- ==== Proof.HostPad.lean ====
/-
  The two host scatters that pad the second layer's weights and bias with zero columns, read in their first 7
  columns at the ideal instance.

  * the [256, 7] weight matrix (after the narrowing format change, the identity on extended reals) is written
    into the all-zero [256, 128] array at the column offset given by the one-element index vector [0]: element
    (k, c) with c < 7 of the result is the matrix's element (k, c);
  * the [7] bias is written into the all-zero [1, 128] array at the offset given by the index vector [0, 0], the
    concatenation of two one-element vectors holding 0: element (0, c) with c < 7 of the result is the bias's
    element c.
  Both follow from the general statements about writing a block at offset 0; what is shown here is that every
  entry of the two index vectors is the word 0.
-/
import proofs.«131359_g78700980732397_cont_9to1_m_426_5_alg».proof.Proof.Gen.KernelIdeal
import proofs.«131359_g78700980732397_cont_9to1_m_426_5_alg».proof.Proof.LibPadScatter
import Idealize.ShloMosaic.Lib.Pipeline.Value

namespace Cert.KernelIdeal.HostPad

open Cert.KernelIdeal Cert.KernelIdeal.Gen Idealize.ShloMosaic Idealize.ShloMosaic.ValueIdx

/-- The second weight matrix padded with zero columns, at any column index c' of the wide array that is, as a
    number, a column c of the matrix: the all-zero [256, 128] array with the [256, 7] matrix written at column
    offset 0 holds there the matrix's element (k, c) (the narrowing format change is the identity on extended
    reals). -/
theorem w2pad_apply_of_val (w2 : FVec Ideal S256x7 .f32) (k : Fin 256) (c : Fin 7) (c' : Fin 128)
    (hc : c'.val = c.val) :
    Host.scatter scatter_S256x128_S1_S256x7_01_n_1_0 (fun _ b => b)
      (broadcastInDim S256x128 ![] bcast_S_S256x128 (constant (F := Ideal) S_ .bf16 0x0000#16))
      (broadcastInDim S1 ![] bcast_S_S1 (constantI S_ 32 0#32))
      (truncf .bf16 w2 bitsLt_bf16_f32) (ix2 k c') = w2 (ix2 k c) := by
  refine (Cert.Lib.PadScatter.scatter_set_block_apply_of_fields
    scatter_S256x128_S1_S256x7_01_n_1_0 rfl rfl rfl rfl (by decide) _ _ (fun _ => rfl) _ k c c' hc).trans ?_
  rfl

/-- The second weight matrix padded with zero columns: the padded array holds, in its first 7 columns, the
    matrix. -/
theorem w2pad_apply (w2 : FVec Ideal S256x7 .f32) (k : Fin 256) (c : Fin 7) :
    Host.scatter scatter_S256x128_S1_S256x7_01_n_1_0 (fun _ b => b)
      (broadcastInDim S256x128 ![] bcast_S_S256x128 (constant (F := Ideal) S_ .bf16 0x0000#16))
      (broadcastInDim S1 ![] bcast_S_S1 (constantI S_ 32 0#32))
      (truncf .bf16 w2 bitsLt_bf16_f32) (ix2 k ⟨c.val, by omega⟩) = w2 (ix2 k c) :=
  w2pad_apply_of_val w2 k c _ rfl

/-- The index vector [0, 0] — two one-element vectors holding the word 0, concatenated — holds the word 0 at
    each of its two positions: position 0 reads the first piece, position 1 the second. -/
theorem idx00_apply (q : S2.Idx) :
    concatenate S2 0 [⟨S1, broadcastInDim S1 ![] bcast_S_S1 (constantI S_ 32 0#32)⟩,
      ⟨S1, broadcastInDim S1 ![] bcast_S_S1 (constantI S_ 32 0#32)⟩] concatenates_S1_S1_S2_d0 q = 0#32 := by
  have hq : (q 0).val < 2 := (q 0).isLt
  by_cases h0 : (q 0).val = 0
  · refine (concatenate_pair_apply_left (0 : Fin S2.rank) _ _ concatenates_S1_S1_S2_d0 q rfl
      (ix1 (0 : Fin 1)) ?_).trans rfl
    intro b
    match b with
    | ⟨0, _⟩ => exact h0.symm
  · refine (concatenate_pair_apply_right (0 : Fin S2.rank) _ _ concatenates_S1_S1_S2_d0 q rfl rfl
      (ix1 (0 : Fin 1)) ?_ ?_).trans rfl
    · intro b hb
      match b with
      | ⟨0, _⟩ => exact absurd rfl hb
    · show 0 + 1 = (q 0).val
      omega

/-- The second bias padded with zero columns, at any row index r of the one-row array and any column index c'
    that is, as a number, a position c of the vector: the all-zero [1, 128] array with the [7] vector written at
    offset (0, 0) holds there the vector's element c. -/
theorem b2pad_apply_of_val (b2 : FVec Ideal S7 .f32) (r : Fin 1) (c : Fin 7) (c' : Fin 128)
    (hc : c'.val = c.val) :
    Host.scatter scatter_S1x128_S2_S7_0_0_01_0 (fun _ b => b)
      (broadcastInDim S1x128 ![] bcast_S_S1x128 (constant (F := Ideal) S_ .f32 0x00000000#32))
      (concatenate S2 0 [⟨S1, broadcastInDim S1 ![] bcast_S_S1 (constantI S_ 32 0#32)⟩,
        ⟨S1, broadcastInDim S1 ![] bcast_S_S1 (constantI S_ 32 0#32)⟩] concatenates_S1_S1_S2_d0)
      b2 (ix2 r c') = b2 (ix1 c) :=
  Cert.Lib.PadScatter.scatter_set_row_apply_of_fields
    scatter_S1x128_S2_S7_0_0_01_0 rfl rfl rfl rfl (by decide) _ _ idx00_apply _ r c c' hc

/-- The second bias padded with zero columns: the padded array holds, in the first 7 columns of its one row, the
    vector. -/
theorem b2pad_apply (b2 : FVec Ideal S7 .f32) (c : Fin 7) :
    Host.scatter scatter_S1x128_S2_S7_0_0_01_0 (fun _ b => b)
      (broadcastInDim S1x128 ![] bcast_S_S1x128 (constant (F := Ideal) S_ .f32 0x00000000#32))
      (concatenate S2 0 [⟨S1, broadcastInDim S1 ![] bcast_S_S1 (constantI S_ 32 0#32)⟩,
        ⟨S1, broadcastInDim S1 ![] bcast_S_S1 (constantI S_ 32 0#32)⟩] concatenates_S1_S1_S2_d0)
      b2 (ix2 0 ⟨c.val, by omega⟩) = b2 (ix1 c) :=
  b2pad_apply_of_val b2 0 c _ rfl

end Cert.KernelIdeal.HostPad
-- ==== Proof.RefValue.lean ====
/-
  The reference program computes the two-layer graph convolution of the specification, with each bias vector
  added to every row.

  Read one operation at a time, the reference is
        v0 = x · w1,   v1 = a · v0,   v4 = v1 + b1 (on every row),   v6 = max (v4, 0),
        v7 = v6 · w2,  v8 = a · v7,   v11 = v8 + b2 (on every row),
  every product being the sum over the contracted index. A bias vector b [n] enters through two broadcasts,
  first to the row [1, n] and then to every row of the result; read at (r, c) the broadcast value is b (c).
  Writing `row b` for the vector seen as the row [1, n], the value v11 is therefore the specification's
  network  a · (max (a · (x · w1) + row b1, 0) · w2) + row b2  as a function of the output index.
-/
import proofs.«131359_g78700980732397_cont_9to1_m_426_5_alg».proof.Proof.Gen.ReferenceIdeal.Read
import proofs.«131359_g78700980732397_cont_9to1_m_426_5_alg».proof.Proof.GcnSpec

noncomputable section

open scoped BigOperators

namespace Cert.ReferenceIdeal.RefValue

open Cert.ReferenceIdeal Cert.ReferenceIdeal.Read Cert.Gcn Idealize.ShloMosaic Idealize.ShloMosaic.ValueIdx

/-- a vector [n] as the row [1, n] -/
def row {n : Nat} (v : (⟨1, ![n]⟩ : Shape).Idx → EReal) : (⟨2, ![1, n]⟩ : Shape).Idx → EReal :=
  fun i => v (ix1 (i 1))

/-! ## The indices the reference reads at, as coordinates -/

theorem lidx_v0 (i : S10000x256.Idx) (k : Fin 1433) : lidx_main_v0 i k = @ix2 10000 1433 (i 0) k :=
  funext fun a => by match a with | ⟨0, _⟩ => rfl | ⟨1, _⟩ => rfl
theorem ridx_v0 (i : S10000x256.Idx) (k : Fin 1433) : ridx_main_v0 i k = @ix2 1433 256 k (i 1) :=
  funext fun a => by match a with | ⟨0, _⟩ => rfl | ⟨1, _⟩ => rfl
theorem lidx_v1 (i : S10000x256.Idx) (k : Fin 10000) : lidx_main_v1 i k = @ix2 10000 10000 (i 0) k :=
  funext fun a => by match a with | ⟨0, _⟩ => rfl | ⟨1, _⟩ => rfl
theorem ridx_v1 (i : S10000x256.Idx) (k : Fin 10000) : ridx_main_v1 i k = @ix2 10000 256 k (i 1) :=
  funext fun a => by match a with | ⟨0, _⟩ => rfl | ⟨1, _⟩ => rfl
theorem lidx_v7 (i : S10000x7.Idx) (k : Fin 256) : lidx_main_v7 i k = @ix2 10000 256 (i 0) k :=
  funext fun a => by match a with | ⟨0, _⟩ => rfl | ⟨1, _⟩ => rfl
theorem ridx_v7 (i : S10000x7.Idx) (k : Fin 256) : ridx_main_v7 i k = @ix2 256 7 k (i 1) :=
  funext fun a => by match a with | ⟨0, _⟩ => rfl | ⟨1, _⟩ => rfl
theorem lidx_v8 (i : S10000x7.Idx) (k : Fin 10000) : lidx_main_v8 i k = @ix2 10000 10000 (i 0) k :=
  funext fun a => by match a with | ⟨0, _⟩ => rfl | ⟨1, _⟩ => rfl
theorem ridx_v8 (i : S10000x7.Idx) (k : Fin 10000) : ridx_main_v8 i k = @ix2 10000 7 k (i 1) :=
  funext fun a => by match a with | ⟨0, _⟩ => rfl | ⟨1, _⟩ => rfl

/-- The first bias, broadcast to every row, read at (r, c) is the row [1, 256] at (0, c). -/
theorem v3_apply (x3 : (⟨S256, .f32⟩ : BufTy).Contents (Elt Ideal)) (i : S10000x256.Idx) :
    val_main_v3 (F := Ideal) x3 i = row (n := 256) x3 (@ix2 1 256 0 (i 1)) := by
  rw [val_main_v3_apply, val_main_v2_apply]
  exact congrArg x3 (funext fun a => by match a with | ⟨0, _⟩ => rfl)

/-- The second bias, broadcast to every row, read at (r, c) is the row [1, 7] at (0, c). -/
theorem v10_apply (x5 : (⟨S7, .f32⟩ : BufTy).Contents (Elt Ideal)) (i : S10000x7.Idx) :
    val_main_v10 (F := Ideal) x5 i = row (n := 7) x5 (@ix2 1 7 0 (i 1)) := by
  rw [val_main_v10_apply, val_main_v9_apply]
  exact congrArg x5 (funext fun a => by match a with | ⟨0, _⟩ => rfl)

/-- The zero the rectifier compares with, read at any index. -/
theorem v5_apply (i : S10000x256.Idx) : val_main_v5 (F := Ideal) i = (0 : EReal) := by
  rw [val_main_v5_apply, val_main_cst_apply]
  exact Ideal.ofBits_zero_f32

/-! ## The stages -/

/-- The first product of the reference is the plain product x · w1. -/
theorem v0_eq (x0 : (⟨S10000x1433, .f32⟩ : BufTy).Contents (Elt Ideal)) (x2 : (⟨S1433x256, .f32⟩ : BufTy).Contents (Elt Ideal)) :
    val_main_v0 (F := Ideal) x0 x2 = prod (A := 10000) (K := 1433) (B := 256) x0 x2 := by
  funext i
  rw [val_main_v0_apply]
  exact Finset.sum_congr rfl fun k _ => by rw [lidx_v0, ridx_v0]

/-- The second product of the reference is a · (x · w1). -/
theorem v1_eq (x0 : (⟨S10000x1433, .f32⟩ : BufTy).Contents (Elt Ideal)) (x1 : (⟨S10000x10000, .f32⟩ : BufTy).Contents (Elt Ideal))
    (x2 : (⟨S1433x256, .f32⟩ : BufTy).Contents (Elt Ideal)) :
    val_main_v1 (F := Ideal) x0 x1 x2
      = prod (A := 10000) (K := 10000) (B := 256) x1 (prod (A := 10000) (K := 1433) (B := 256) x0 x2) := by
  funext i
  rw [val_main_v1_apply, v0_eq]
  exact Finset.sum_congr rfl fun k _ => by rw [lidx_v1, ridx_v1]

/-- The rectified first layer of the reference is max (a · (x · w1) + row b1, 0). -/
theorem v6_eq (x0 : (⟨S10000x1433, .f32⟩ : BufTy).Contents (Elt Ideal)) (x1 : (⟨S10000x10000, .f32⟩ : BufTy).Contents (Elt Ideal))
    (x2 : (⟨S1433x256, .f32⟩ : BufTy).Contents (Elt Ideal)) (x3 : (⟨S256, .f32⟩ : BufTy).Contents (Elt Ideal)) :
    val_main_v6 (F := Ideal) x0 x1 x2 x3
      = rect (A := 10000) (K := 10000) (B := 256) x1 (prod (A := 10000) (K := 1433) (B := 256) x0 x2) (row (n := 256) x3) := by
  funext i
  rw [val_main_v6_apply, val_main_v4_apply, v1_eq, v3_apply, v5_apply]
  rfl

/-- The third product of the reference is (the rectified first layer) · w2. -/
theorem v7_eq (x0 : (⟨S10000x1433, .f32⟩ : BufTy).Contents (Elt Ideal)) (x1 : (⟨S10000x10000, .f32⟩ : BufTy).Contents (Elt Ideal))
    (x2 : (⟨S1433x256, .f32⟩ : BufTy).Contents (Elt Ideal)) (x3 : (⟨S256, .f32⟩ : BufTy).Contents (Elt Ideal))
    (x4 : (⟨S256x7, .f32⟩ : BufTy).Contents (Elt Ideal)) :
    val_main_v7 (F := Ideal) x0 x1 x2 x3 x4
      = prod (A := 10000) (K := 256) (B := 7)
          (rect (A := 10000) (K := 10000) (B := 256) x1 (prod (A := 10000) (K := 1433) (B := 256) x0 x2) (row (n := 256) x3)) x4 := by
  funext i
  rw [val_main_v7_apply, v6_eq]
  exact Finset.sum_congr rfl fun k _ => by rw [lidx_v7, ridx_v7]

/-- The reference computes the network, each bias vector entering as a row added to every row of its layer. -/
theorem ref_eq (x0 : (⟨S10000x1433, .f32⟩ : BufTy).Contents (Elt Ideal)) (x1 : (⟨S10000x10000, .f32⟩ : BufTy).Contents (Elt Ideal))
    (x2 : (⟨S1433x256, .f32⟩ : BufTy).Contents (Elt Ideal)) (x3 : (⟨S256, .f32⟩ : BufTy).Contents (Elt Ideal))
    (x4 : (⟨S256x7, .f32⟩ : BufTy).Contents (Elt Ideal)) (x5 : (⟨S7, .f32⟩ : BufTy).Contents (Elt Ideal)) :
    Cert.ReferenceIdeal.Read.val_main_v11 (F := Ideal) x0 x1 x2 x3 x4 x5 = Cert.Gcn.net x0 x1 x2 (row x3) x4 (row x5) := by
  funext i
  rw [val_main_v11_apply, val_main_v8_apply, v7_eq, v10_apply]
  exact congrArg (· + _) (Finset.sum_congr rfl fun k _ => by rw [lidx_v8, ridx_v8])

end Cert.ReferenceIdeal.RefValue

end
-- ==== Proof.KernelValue.lean ====
/-
  The idealized kernel's result is the network.

  After the run the result buffer holds columns 0 … 6 of  a · ((max (a · (x · w1) + b1row, 0)) · w2pad) + b2pad,
  where w2pad and b2pad are the second weight matrix and bias widened with zero columns to 128. The network at
  (r, c) reads only column c of its last two operands, and in columns 0 … 6 the widened operands hold the
  originals; the first bias as a row [1, 256] is the vector read at its column. So the result is the network of
  the six arguments, each bias seen as a row.
-/
import proofs.«131359_g78700980732397_cont_9to1_m_426_5_alg».proof.Proof.KernelChain
import proofs.«131359_g78700980732397_cont_9to1_m_426_5_alg».proof.Proof.HostPad
import proofs.«131359_g78700980732397_cont_9to1_m_426_5_alg».proof.Proof.RefValue
import Idealize.ShloMosaic.Lib.Pipeline.Value
import Idealize.ShloMosaic.Lib.ValueLayout

set_option maxRecDepth 16384

noncomputable section

namespace Cert.KernelIdeal.Net

open Cert.KernelIdeal Cert.KernelIdeal.Gen Idealize.ShloMosaic Idealize.ShloMosaic.TcCoe Idealize.SL.Sem
open Idealize.ShloMosaic.ValueIdx
open Cert.ReferenceIdeal.RefValue (row)

variable (m : (ℓ : Loc nD τ sig) → Buf (Elt Ideal) ℓ) (ρ : Dev nD → PrngReg)

/-- A vector [256] recast as the row [1, 256] is the vector read at the column. -/
theorem b1row_eq (b1 : FVec Ideal S256 .f32) : shapeCast S1x256 b1 shapeCasts_S256_S1x256 = row (n := 256) b1 := by
  funext i
  refine (shapeCast_addUnit_apply ![256] b1 shapeCasts_S256_S1x256 i).trans ?_
  exact congrArg b1 (funext fun a => by match a with | ⟨0, _⟩ => rfl)

/-- The result buffer after the run: the network of the six arguments. -/
theorem result_eq (c : Dev nD) : W5 m ρ c (Proc.devRef .tc main_v13)
    = Gcn.net (m ((c : Thread nD τ).loc main_arg0)) (m ((c : Thread nD τ).loc main_arg1))
        (m ((c : Thread nD τ).loc main_arg2)) (row (n := 256) (m ((c : Thread nD τ).loc main_arg3)))
        (m ((c : Thread nD τ).loc main_arg4)) (row (n := 7) (m ((c : Thread nD τ).loc main_arg5))) := by
  rw [W5_v13, W4_v12, b1row_eq]
  funext i
  have hi1 : (i 1).val < 7 := (i 1).isLt
  refine (extractStridedSlice_apply ![0, 0] _ slices_S10000x128_S10000x7_0_0 i
    (ix2 (i 0) (⟨(i 1).val, by omega⟩ : Fin 128)) (fun a => ?_)).trans ?_
  · match a with
    | ⟨0, _⟩ => show (i 0).val = 0 + (i 0).val; omega
    | ⟨1, _⟩ => show (i 1).val = 0 + (i 1).val; omega
  · exact Gcn.net_congr _ _ _ _ (w2pad (m ((c : Thread nD τ).loc main_arg4))) (b2pad (m ((c : Thread nD τ).loc main_arg5)))
      (m ((c : Thread nD τ).loc main_arg4)) (row (n := 7) (m ((c : Thread nD τ).loc main_arg5)))
      (ix2 (i 0) (⟨(i 1).val, by omega⟩ : Fin 128)) i rfl
      (fun k => HostPad.w2pad_apply_of_val _ k (i 1) _ rfl)
      (HostPad.b2pad_apply_of_val _ 0 (i 1) _ rfl)

end Cert.KernelIdeal.Net

end
-- ==== Proof.lean ====
/-
  A two-layer graph convolution with a dense adjacency: the kernel against its jnp reference, at the ideal values.

  Both programs compute  out = a · (max (a · (x · w1) + b1, 0) · w2) + b2  with every product associated the same way.
  The kernel does it in three pallas_calls — the feature product x · w1 in ten blocks of rows; the first layer and the
  projection onto the second weight matrix in fifty blocks of rows, keeping the adjacency's rows aside in fifty slabs;
  the second aggregation in fifty blocks of rows, reading the adjacency from the slabs — with the second weight matrix
  and bias widened from 7 to 128 columns by zeros, and keeps columns 0 … 6 of what it computed. On the extended reals
  the roundings to bf16 are the identity, each block of rows of a product is the product of that block of rows, the
  slabs read back are the adjacency, and column c < 7 of the result reads only column c of the widened operands, where
  they hold the originals. So both results are one function of the six arguments (`Cert.Gcn.net`), with no
  rearrangement of any sum: the precondition is not used.

  The kernel's frames are its generated frame certificates; the reference's frame is its generated run with the
  result dropped; no operation was rewritten by the ideal pass, so the idealization claim is trivial.
-/
import proofs.«131359_g78700980732397_cont_9to1_m_426_5_alg».proof.Defs
import proofs.«131359_g78700980732397_cont_9to1_m_426_5_alg».proof.Proof.Gen.Kernel
import proofs.«131359_g78700980732397_cont_9to1_m_426_5_alg».proof.Proof.Gen.Kernel.Frame
import proofs.«131359_g78700980732397_cont_9to1_m_426_5_alg».proof.Proof.Gen.KernelIdeal
import proofs.«131359_g78700980732397_cont_9to1_m_426_5_alg».proof.Proof.Gen.KernelIdeal.Frame
import proofs.«131359_g78700980732397_cont_9to1_m_426_5_alg».proof.Proof.Gen.ReferenceIdeal
import proofs.«131359_g78700980732397_cont_9to1_m_426_5_alg».proof.Proof.Gen.Pre_finite_inputs
import proofs.«131359_g78700980732397_cont_9to1_m_426_5_alg».proof.Proof.Gen.ReferenceIdeal.Run
import proofs.«131359_g78700980732397_cont_9to1_m_426_5_alg».proof.Proof.Gen.ReferenceIdeal.Read
import proofs.«131359_g78700980732397_cont_9to1_m_426_5_alg».proof.Proof.KernelRun
import proofs.«131359_g78700980732397_cont_9to1_m_426_5_alg».proof.Proof.KernelValue
import proofs.«131359_g78700980732397_cont_9to1_m_426_5_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the six arguments both programs end with the network of those arguments in their
    result buffers: the kernel by its run read through the three calls, the reference by its run read one operation
    at a time. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (Cert.ReferenceIdeal.RefValue.row (n := 256) (m ((c.tc : Thread Cert.KernelIdeal.nD Cert.KernelIdeal.τ).loc Cert.KernelIdeal.main_arg3)))
      (m ((c.tc : Thread Cert.KernelIdeal.nD Cert.KernelIdeal.τ).loc Cert.KernelIdeal.main_arg4))
      (Cert.ReferenceIdeal.RefValue.row (n := 7) (m ((c.tc : Thread Cert.KernelIdeal.nD Cert.KernelIdeal.τ).loc Cert.KernelIdeal.main_arg5))),
    ?_, ?_⟩
  · exact (θ_run Cert.KernelIdeal.defs _ _).mono
      (fun r h c => ⟨(h c).1.trans (Cert.KernelIdeal.Net.result_eq m ρ c), (h c).2⟩)
      (Cert.KernelIdeal.Net.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v11_eq, Cert.ReferenceIdeal.RefValue.ref_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
